-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x3072 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S2048x1024 : Shape := ⟨2, ![2048, 1024]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 12
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S1x3072, .f32⟩
  | .hbm, ⟨7, _⟩ => ⟨S8192x3072, .bf16⟩
  | .hbm, ⟨8, _⟩ => ⟨S8192x1024, .bf16⟩
  | .hbm, ⟨9, _⟩ => ⟨S1x1024, .f32⟩
  | .hbm, ⟨10, _⟩ => ⟨S8192x1024, .f32⟩
  | .hbm, ⟨11, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .f32⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x3072_S1024x3072_0_0 : ∀ a, (![0, 0] : Fin 2 → Nat) a + S1024x3072.size a ≤ S1024x3072.size a
  h_S1024x3072 : 0 < S1024x3072.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S512x1024_o0_0_S512x64 : S512x1024.Slices ![0, 0] S512x64
  slices_S2048x1024_o0_0_S2048x64 : S2048x1024.Slices ![0, 0] S2048x64
  reduces_S512x2048_S512 : S512x2048.Reduces [1] S512
  shapeCasts_S512_S512x1 : S512.ShapeCasts S512x1
  broadcasts_S512x1_S512x2048 : S512x1.Broadcasts S512x2048
  slices_S512x1024_o0_64_S512x64 : S512x1024.Slices ![0, 64] S512x64
  slices_S2048x1024_o0_64_S2048x64 : S2048x1024.Slices ![0, 64] S2048x64
  slices_S512x1024_o0_128_S512x64 : S512x1024.Slices ![0, 128] S512x64
  slices_S2048x1024_o0_128_S2048x64 : S2048x1024.Slices ![0, 128] S2048x64
  slices_S512x1024_o0_192_S512x64 : S512x1024.Slices ![0, 192] S512x64
  slices_S2048x1024_o0_192_S2048x64 : S2048x1024.Slices ![0, 192] S2048x64
  slices_S512x1024_o0_256_S512x64 : S512x1024.Slices ![0, 256] S512x64
  slices_S2048x1024_o0_256_S2048x64 : S2048x1024.Slices ![0, 256] S2048x64
  slices_S512x1024_o0_320_S512x64 : S512x1024.Slices ![0, 320] S512x64
  slices_S2048x1024_o0_320_S2048x64 : S2048x1024.Slices ![0, 320] S2048x64
  slices_S512x1024_o0_384_S512x64 : S512x1024.Slices ![0, 384] S512x64
  slices_S2048x1024_o0_384_S2048x64 : S2048x1024.Slices ![0, 384] S2048x64
  slices_S512x1024_o0_448_S512x64 : S512x1024.Slices ![0, 448] S512x64
  slices_S2048x1024_o0_448_S2048x64 : S2048x1024.Slices ![0, 448] S2048x64
  slices_S512x1024_o0_512_S512x64 : S512x1024.Slices ![0, 512] S512x64
  slices_S2048x1024_o0_512_S2048x64 : S2048x1024.Slices ![0, 512] S2048x64
  slices_S512x1024_o0_576_S512x64 : S512x1024.Slices ![0, 576] S512x64
  slices_S2048x1024_o0_576_S2048x64 : S2048x1024.Slices ![0, 576] S2048x64
  slices_S512x1024_o0_640_S512x64 : S512x1024.Slices ![0, 640] S512x64
  slices_S2048x1024_o0_640_S2048x64 : S2048x1024.Slices ![0, 640] S2048x64
  slices_S512x1024_o0_704_S512x64 : S512x1024.Slices ![0, 704] S512x64
  slices_S2048x1024_o0_704_S2048x64 : S2048x1024.Slices ![0, 704] S2048x64
  slices_S512x1024_o0_768_S512x64 : S512x1024.Slices ![0, 768] S512x64
  slices_S2048x1024_o0_768_S2048x64 : S2048x1024.Slices ![0, 768] S2048x64
  slices_S512x1024_o0_832_S512x64 : S512x1024.Slices ![0, 832] S512x64
  slices_S2048x1024_o0_832_S2048x64 : S2048x1024.Slices ![0, 832] S2048x64
  slices_S512x1024_o0_896_S512x64 : S512x1024.Slices ![0, 896] S512x64
  slices_S2048x1024_o0_896_S2048x64 : S2048x1024.Slices ![0, 896] S2048x64
  slices_S512x1024_o0_960_S512x64 : S512x1024.Slices ![0, 960] S512x64
  slices_S2048x1024_o0_960_S2048x64 : S2048x1024.Slices ![0, 960] S2048x64
  concatenates_S512x64_S512x64_S512x64_S512x64_S512x64_S512x64_S512x64_S512x64_S512x64_S512x64_S512x64_S512x64_S512x64_S512x64_S512x64_S512x64_S512x1024_d1 : Shape.Concatenates [S512x64, S512x64, S512x64, S512x64, S512x64, S512x64, S512x64, S512x64, S512x64, S512x64, S512x64, S512x64, S512x64, S512x64, S512x64, S512x64] S512x1024 1
  packedbf16_S512x1024_S512x1024_0_0 : (Rect.unit (s := S512x1024) ![0, 0] S512x1024.size inb_S512x1024_S512x1024_0_0).PackedRows (EltTy.packing .bf16)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .f32 = 32 ∨ (Rect.block (s := S1024x3072) S1024x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x3072.size a
  hwx1_0 : ∀ i : grid1.Coords, EltTy.bits .bf16 = 32 ∨ (Rect.block (s := S8192x3072) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x3072.size a
  hwx1_1 : ∀ i : grid1.Coords, EltTy.bits .bf16 = 32 ∨ (Rect.block (s := S8192x3072) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S8192x3072.size a
  hwx1_2 : ∀ i : grid1.Coords, EltTy.bits .bf16 = 32 ∨ (Rect.block (s := S8192x3072) S2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .bf16 = 32 ∨ (Rect.block (s := S8192x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x3x16x64, .f32⟩
  | .hbm, ⟨10, _⟩ => ⟨S3x4x16x2048x64, .f32⟩
  | .hbm, ⟨11, _⟩ => ⟨S1x4x16x2048x64, .f32⟩
  | .hbm, ⟨12, _⟩ => ⟨S4x16x2048x64, .f32⟩
  | .hbm, ⟨13, _⟩ => ⟨S1x4x16x2048x64, .f32⟩
  | .hbm, ⟨14, _⟩ => ⟨S4x16x2048x64, .f32⟩
  | .hbm, ⟨15, _⟩ => ⟨S1x4x16x2048x64, .f32⟩
  | .hbm, ⟨16, _⟩ => ⟨S4x16x2048x64, .f32⟩
  | .hbm, ⟨17, _⟩ => ⟨S4x16x2048x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x16x2048x2048, .f32⟩
  | .hbm, ⟨23, _⟩ => ⟨S4x16x2048x2048, .f32⟩
  | .hbm, ⟨24, _⟩ => ⟨S_, .f32⟩
  | .hbm, ⟨25, _⟩ => ⟨S4x16x2048, .f32⟩
  | .hbm, ⟨26, _⟩ => ⟨S_, .f32⟩
  | .hbm, ⟨27, _⟩ => ⟨S4x16x2048, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S4x16x2048, .f32⟩
  | .hbm, ⟨35, _⟩ => ⟨S4x16x2048x1, .f32⟩
  | .hbm, ⟨36, _⟩ => ⟨S4x16x2048x2048, .f32⟩
  | .hbm, ⟨37, _⟩ => ⟨S4x16x2048x2048, .f32⟩
  | .hbm, ⟨38, _⟩ => ⟨S4x16x2048x64, .f32⟩
  | .hbm, ⟨39, _⟩ => ⟨S4x2048x16x64, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x3072_S4x2048x3072_2_0_01_1_n_n_wf : DotDims.WF S4x2048x1024 S1024x3072 S4x2048x3072 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_0_01_1_n_n_wf : DotDims.WF S4x2048x1024 S1024x1024 S4x2048x1024 [2] [0] [0, 1] [1] [] []

variable [Facts₀]

def dot_S4x2048x1024_S1024x3072_S4x2048x3072_2_0_01_1_n_n : DotDims S4x2048x1024 S1024x3072 S4x2048x3072 where
  lhsContracting := [2]
  rhsContracting := [0]
  lhsNonContracting := [0, 1]
  rhsNonContracting := [1]
  lhsBatch := []
  rhsBatch := []
  wf := dot_S4x2048x1024_S1024x3072_S4x2048x3072_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf

class Facts : Prop extends Facts₀ where

variable [Facts]
-- ==== Proof.K.Body0.lean ====
/- The body half of custom_call 0 (a matrix product plus a bias row): at a parameter `V` — the TensorCore's buffer
   contents when the region is entered — each window's block at a point, what the body leaves in the output
   window's staging buffer as a closed function of the three input blocks, the body's triple, the pipeline's proof
   data and the library's body obligation at every point. -/
import proofs.«109098_j72773925864105_2_alg».proof.Proof.Gen.Kernel.Launch
import proofs.«109098_j72773925864105_2_alg».proof.Proof.Gen.Kernel.Skeleton
import proofs.«109098_j72773925864105_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's whole rectangle -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- Window 3's staging buffer after the body, from the input windows' blocks: its one store, of the product plus
    the bias row, over the whole rectangle. -/
def out0_3 (x0 : Vec F S512x1024 .f32) (x1 : Vec F S1024x3072 .f32) (x2 : Vec F S1x3072 .f32) : Vec F S512x3072 .bf16 :=
  View.canon [⟨r0_3, k0_pay1 (View.ld x0 r0_0) (View.ld x1 r0_1) (View.ld x2 r0_2)⟩]

/-- The store tiles the buffer (checked by evaluation), so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 1000000 in
/-- The kernel body on whole staging memrefs, the inputs' at read contents `xW` and the output's at anything, runs to
    the continuation holding the inputs' as they were and the output's at `out0_3` of the inputs': the printed function
    is its skeleton; the load of the output buffer reads a value nothing uses. -/
theorem sound_kernel0 (c : Dev nD) (E : Set ℕ) (i : grid0.Coords)
    (arg1 : Memref sig .tc .vmem S512x1024 .f32) (harg1 : arg1.IsWhole) (arg2 : Memref sig .tc .vmem S1024x3072 .f32) (harg2 : arg2.IsWhole)
    (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .f32) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/- The attention region's body half: what the attention kernel leaves in its output window's staging buffer, as a
   function of the three input windows' blocks (all three cut from one array), the body's triple, the pipeline's
   proof data and the body obligation at every grid point. -/
import proofs.«109098_j72773925864105_2_alg».proof.Proof.Gen.Kernel.Launch
import proofs.«109098_j72773925864105_2_alg».proof.Proof.Gen.Kernel.Skeleton
import proofs.«109098_j72773925864105_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # The attention region (custom_call 1, pipeline 1), at the entry contents V -/

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is V's and whose body leaves the block in place: unfetched, the block index has not moved;
    the window is uncut and never idle. Window 0 (the query tile), -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- window 1 (the key slab), -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- and window 2 (the value slab). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole query / output tile, -/
abbrev r1_0 : Rect S512x1024 := Rect.unit (s := S512x1024) ![0, 0] S512x1024.size inb_S512x1024_S512x1024_0_0
/-- and the whole key / value slab. -/
abbrev r1_1 : Rect S2048x1024 := Rect.unit (s := S2048x1024) ![0, 0] S2048x1024.size inb_S2048x1024_S2048x1024_0_0

/-! ## What the body leaves in the output window's buffer -/

/-- The value the body's one store writes, from the three loaded blocks: the sixteen heads' results (each a payload
    of the loaded blocks, through the values the body's parts pass on), concatenated and rounded to bf16. -/
def pay1_3 (v0 : Vec F S512x1024 .bf16) (v2 v4 : Vec F S2048x1024 .bf16) : FVec F S512x1024 .bf16 :=
  k1_pay2 (k1_pay6 v0 v2 v4) (k1_pay7 v0 v2 v4)
    (k1_pay10 (k1_pay5 v4) (k1_pay8 v0) (k1_pay9 v2)) (k1_pay11 (k1_pay3 v0) (k1_pay4 v2) (k1_pay5 v4))
    (k1_pay15 (k1_pay12 (k1_pay5 v4)) (k1_pay13 (k1_pay3 v0) (k1_pay4 v2)) (k1_pay14 (k1_pay3 v0) (k1_pay4 v2)))
    (k1_pay16 (k1_pay3 v0) (k1_pay4 v2) (k1_pay5 v4)) (k1_pay17 (k1_pay3 v0) (k1_pay4 v2) (k1_pay5 v4))
    (k1_pay21 (k1_pay18 (k1_pay5 v4)) (k1_pay19 (k1_pay3 v0) (k1_pay4 v2)) (k1_pay20 (k1_pay3 v0) (k1_pay4 v2)))
    (k1_pay22 (k1_pay3 v0) (k1_pay4 v2) (k1_pay5 v4)) (k1_pay23 (k1_pay3 v0) (k1_pay4 v2) (k1_pay5 v4))
    (k1_pay26 (k1_pay24 (k1_pay5 v4)) (k1_pay25 (k1_pay3 v0) (k1_pay4 v2)) (Scalar.ofBits .f32 0x3E000000#32))
    (k1_pay27 (k1_pay3 v0) (k1_pay4 v2) (k1_pay5 v4)) (k1_pay28 (k1_pay3 v0) (k1_pay4 v2) (k1_pay5 v4))
    (k1_pay29 (k1_pay3 v0) (k1_pay4 v2) (k1_pay5 v4)) (k1_pay30 (k1_pay3 v0) (k1_pay4 v2) (k1_pay5 v4))
    (k1_pay1 (k1_pay31 (k1_pay5 v4)) (k1_pay32 (k1_pay3 v0) (k1_pay4 v2)) (k1_pay33 (k1_pay3 v0) (k1_pay4 v2)))

/-- Window 3's staging buffer after the body, from the input windows' blocks: its one store as a piece. -/
def out1_3 (x0 : Vec F S512x1024 .bf16) (x1 x2 : Vec F S2048x1024 .bf16) : Vec F S512x1024 .bf16 :=
  View.canon [⟨r1_0, pay1_3 (View.ld x0 r1_0) (View.ld x1 r1_1) (View.ld x2 r1_1)⟩]

/-- The store covers the whole buffer. -/
theorem cover1_3 (p0 : Vec F S512x1024 .bf16) (y : S512x1024.Idx) :
    ∃ pc ∈ ([⟨r1_0, p0⟩] : List (View.Piece (Elt F) S512x1024 .bf16)), y ∈ pc.1.set :=
  View.cover_of_tiled [⟨r1_0, p0⟩] S512x1024.size (by rfl) y

/-! ## The body's triple -/

set_option maxHeartbeats 4000000 in
/-- The kernel body on whole staging memrefs, the inputs' at read contents and the output's at anything, runs to the
    continuation holding the inputs' as they were and the output's at out1_3 of the inputs'. -/
theorem sound_kernel1 (c : Dev nD) (E : Set ℕ) (i : grid1.Coords)
    (arg0 : Memref sig .tc .vmem S512x1024 .bf16) (harg0 : arg0.IsWhole) (arg1 : Memref sig .tc .vmem S2048x1024 .bf16) (harg1 : arg1.IsWhole)
    (arg2 : Memref sig .tc .vmem S2048x1024 .bf16) (harg2 : arg2.IsWhole) (arg3 : Memref sig .tc .vmem S512x1024 .bf16) (harg3 : arg3.IsWhole)
    (x0 : Vec F S512x1024 .bf16) (x1 x2 : Vec F S2048x1024 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core c: the arrays as the region finds them (V); after the body at point t each
    input's buffer at its block and the output's at out1_3 of the three input blocks; the invariant the scoped rest
    and the generator register, untouched; nothing owed. The three input windows are cut from one array, so they split
    its share between them: the left half, and the two halves of the right half; the output's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := fun w => match w with
    | ⟨0, _⟩ => fullShare.left
    | ⟨1, _⟩ => fullShare.right.left
    | ⟨2, _⟩ => fullShare.right.right
    | ⟨3, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's owed tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Body2.lean ====
/- The body half of custom_call 2 (a matrix product plus a bias row): at a parameter `V` — the TensorCore's buffer
   contents when the region is entered — each window's block at a point, what the body leaves in the output
   window's staging buffer as a closed function of the three input blocks, the body's triple, the pipeline's proof
   data and the library's body obligation at every point. -/
import proofs.«109098_j72773925864105_2_alg».proof.Proof.Gen.Kernel.Launch
import proofs.«109098_j72773925864105_2_alg».proof.Proof.Gen.Kernel.Skeleton
import proofs.«109098_j72773925864105_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window's whole rectangle -/

abbrev r2_0 : Rect S1024x1024 := Rect.unit (s := S1024x1024) ![0, 0] S1024x1024.size inb_S1024x1024_S1024x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S1024x1024 := Rect.unit (s := S1024x1024) ![0, 0] S1024x1024.size inb_S1024x1024_S1024x1024_0_0

/-! ## What the body leaves in the output window's buffer -/

/-- Window 3's staging buffer after the body, from the input windows' blocks: its one store, of the product plus
    the bias row, over the whole rectangle. -/
def out2_3 (x0 : Vec F S1024x1024 .bf16) (x1 : Vec F S1024x1024 .f32) (x2 : Vec F S1x1024 .f32) : Vec F S1024x1024 .f32 :=
  View.canon [⟨r2_3, k2_pay1 (View.ld x0 r2_0) (View.ld x1 r2_1) (View.ld x2 r2_2)⟩]

/-- The store tiles the buffer (checked by evaluation), so it covers it. -/
theorem cover2_3 (p0 : Vec F S1024x1024 .f32) (y : S1024x1024.Idx) :
    ∃ pc ∈ ([⟨r2_3, p0⟩] : List (View.Piece (Elt F) S1024x1024 .f32)), y ∈ pc.1.set :=
  View.cover_of_tiled [⟨r2_3, p0⟩] S1024x1024.size (by rfl) y

/-! ## The body's triple -/

set_option maxHeartbeats 1000000 in
/-- The kernel body on whole staging memrefs, the inputs' at read contents `xW` and the output's at anything, runs to
    the continuation holding the inputs' as they were and the output's at `out2_3` of the inputs': the printed function
    is its skeleton; the load of the output buffer reads a value nothing uses. -/
theorem sound_kernel2 (c : Dev nD) (E : Set ℕ) (i : grid2.Coords)
    (arg1 : Memref sig .tc .vmem S1024x1024 .bf16) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The program's run, for any float instance: @main is two reshapes, the projection region, the attention region, a
  reshape, the output projection region and a last reshape.  The contents of the unscoped buffers are followed
  through these six segments (`W0` … `W6`): a reshape stretch applies its operations, a region replaces its
  output array by what its grid points wrote back and leaves everything else.  Each region enters the pipeline
  rule with its arrays split out of the buffers and leaves with them put back; the attention region reads ONE
  array through three windows, so that array's share is dealt among them (a half and two quarters) on the way in
  and joined on the way out.  `run_main` is the launch over the six segments; `frame` reads the five argument
  arrays off the last contents, where no segment has written them.
-/
import proofs.«109098_j72773925864105_2_alg».proof.Proof.Gen.Kernel.Launch
import proofs.«109098_j72773925864105_2_alg».proof.Proof.Gen.Kernel.Skeleton
import proofs.«109098_j72773925864105_2_alg».proof.Proof.Gen.Kernel.Points
import proofs.«109098_j72773925864105_2_alg».proof.Proof.Gen.Kernel.Regions
import proofs.«109098_j72773925864105_2_alg».proof.Proof.K.Body0
import proofs.«109098_j72773925864105_2_alg».proof.Proof.K.Body1
import proofs.«109098_j72773925864105_2_alg».proof.Proof.K.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of the program: a fold from the launch memory -/

/-- At launch. -/
abbrev W0 : Dev nD → Valuation τ sig (Elt F) := fun c b => m (c, b)
/-- After the first two reshapes (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- After region 0: its arrays at what the pipeline leaves (the inputs as entered, the output's write-backs folded),
    every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After region 1: only its output array changes (its three input windows read one array, which stays). -/
def W3 (c : Dev nD) : Valuation τ sig (Elt F) :=
  Function.update (W2 m c) main_v3 ((dat1 (U2 m) c).arrAt 3 cfg1.N)
abbrev U3 : (c : Dev nD) → (b : Ref sig .tc) → Buf (Elt F) ((c : Thread nD τ).loc b) := fun c b => W3 m c b
/-- After the bias's reshape (region 2's entry). -/
abbrev W4 : Dev nD → Valuation τ sig (Elt F) := fun c => StableHlo.after hostOps2 (W3 m c)
abbrev U4 : (c : Dev nD) → (b : Ref sig .tc) → Buf (Elt F) ((c : Thread nD τ).loc b) := fun c b => W4 m c b

/-- After region 2: its arrays at what the pipeline leaves (the inputs as entered, the output's write-backs folded),
    every other buffer as entered. -/
def W5 (c : Dev nD) : Valuation τ sig (Elt F) :=
  Pipeline.withArrays spec2 c (W4 m c) fun w => (dat2 (U4 m) c).arrAt w cfg2.N
theorem W5_arr (c : Dev nD) (w : Fin cfg2.W) :
    W5 m c (Proc.devRef .tc (Pipeline.arrRef spec2 w)) = (dat2 (U4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev U5 : (c : Dev nD) → (b : Ref sig .tc) → Buf (Elt F) ((c : Thread nD τ).loc b) := fun c b => W5 m c b
theorem hF2 (c : Dev nD) (w : Fin cfg2.W) : (dat2 (U4 m) c).arrAt w cfg2.N = U5 m c (Pipeline.arrRef spec2 w) :=
  (W5_arr m c w).symm
theorem hrest2 (c : Dev nD) : ∀ b, b ∉ Finset.univ.image (Pipeline.arrRef spec2) → U5 m c b = U4 m c b :=
  fun b hb => W5_of_ne m c b fun w e => hb (Finset.mem_image.mpr ⟨w, Finset.mem_univ _, e⟩)

/-- After the last reshape. -/
abbrev W6 : Dev nD → Valuation τ sig (Elt F) := fun c => StableHlo.after hostOps3 (W5 m c)

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
  | ⟨2, _⟩ => fun c => dat2 (U4 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state: entered with every unscoped buffer at the contents before it, left with the
    output array at what the write-backs leave; the generator register goes into the kernel's invariant and comes
    back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with the
    output array at what the write-backs leave; the generator register goes into the kernel's invariant and comes
    back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U4 m c) (U5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The two distinct buffers behind region 1's four windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3) ↦{fullShare} V main_v3)) := by
  unfold Pipeline.arrBufs; exact bigSep_eq_bigSepL_of_eq [main_v2, main_v3] (by decide) (by decide) _

/-- One array read by three windows: its full share dealt as a half and two quarters, and put back. -/
theorem share3 {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  have h1 : (ℓ ↦{fullShare} f : sProp 𝕄) ⊣⊢ iprop((ℓ ↦{fullShare.left} f) ∗ ℓ ↦{fullShare.right} f) :=
    pointsTo_share (PosShare.mem_left_op_right fullShare)
  have h2 : (ℓ ↦{fullShare.right} f : sProp 𝕄) ⊣⊢ iprop((ℓ ↦{fullShare.right.left} f) ∗ ℓ ↦{fullShare.right.right} f) :=
    pointsTo_share (PosShare.mem_left_op_right fullShare.right)
  exact ⟨h1.1.trans (sep_mono .rfl h2.1), (sep_mono .rfl h2.2).trans h1.2⟩

theorem W3_main_v3 (c : Dev nD) : U3 m c main_v3 = (dat1 (U2 m) c).arrAt 3 cfg1.N := by
  show Function.update (W2 m c) _ _ _ = _
  exact Function.update_self ..
theorem W3_of_ne (c : Dev nD) (b : Ref sig .tc) (hb : b ≠ main_v3) : U3 m c b = U2 m c b := by
  show Function.update (W2 m c) _ _ _ = _
  exact Function.update_of_ne (StableHlo.devRef_ne_of_ne hb) ..

set_option backward.isDefEq.respectTransparency.types false in
/-- Region 1 over the thread state. Its three input windows read ONE array, so that array's full share is dealt
    among them at the entry (a half and two quarters) and joined again at the exit; only the output array changes. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit : (unscopedBufs c (U2 m c) : sProp 𝕄) = iprop(Pipeline.arrBufs spec1 c (U2 m c) ∗ Pipeline.unscopedRest spec1 c (U2 m c)) :=
      Pipeline.unscopedBufs_split₀ (Pipeline.pin (pcfgs (F := F)) adm) 1 winFacts₀1.arr_unscoped c (U2 m c)
    rw [Pipeline.unscopedBufs_held, arrBufs1_eq] at hsplit
    rw [hsplit]
    have hs : ∀ w : Fin 4, ((Pipeline.pin (pcfgs (F := F)) adm 1).win w).arr.view.set = Finset.univ := fun w => (arr_whole1 w).set_eq_univ
    have hdeal := (share3 (F := F) (U2 m c main_v2)).1
    iintro ⟨⟨Hbufs, Hp, HO⟩, -, -⟩
    icases Hbufs with ⟨Harr, Hrest⟩
    icases Harr with ⟨H2, H3⟩
    ihave H2' := hdeal $$ H2
    icases H2' with ⟨Ha, Hb, Hc⟩
    imodintro
    isplitl [Ha Hb Hc H3]
    · unfold Pipeline.Dat.arrays
      rw [bigSep_W1, hs 0, hs 1, hs 2, hs 3]
      isplitl [Ha]; · iexact Ha
      isplitl [Hb]; · iexact Hb
      isplitl [Hc]; · iexact Hc
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit : (unscopedBufs c (U3 m c) : sProp 𝕄) = iprop(Pipeline.arrBufs spec1 c (U3 m c) ∗ Pipeline.unscopedRest spec1 c (U3 m c)) :=
      Pipeline.unscopedBufs_split₀ (Pipeline.pin (pcfgs (F := F)) adm) 1 winFacts₀1.arr_unscoped c (U3 m c)
    rw [Pipeline.unscopedBufs_held, arrBufs1_eq] at hsplit
    have hrest : (Pipeline.unscopedRest (Ix := Unit) (Name := ℕ) (U := UR sig nD τ) (Lvl := ℕ) spec1 c (U3 m c) : sProp 𝕄)
        = Pipeline.unscopedRest spec1 c (U2 m c) := by
      unfold Pipeline.unscopedRest
      exact bigSep_congr fun b hb => by
        rw [W3_of_ne m c b fun e => (Finset.mem_sdiff.mp hb).2 (Finset.mem_image.mpr ⟨3, Finset.mem_univ _, e.symm⟩)]
    rw [hsplit, hrest]
    have hs : ∀ w : Fin 4, ((Pipeline.pin (pcfgs (F := F)) adm 1).win w).arr.view.set = Finset.univ := fun w => (arr_whole1 w).set_eq_univ
    have hjoin3 := (share3 (F := F) (U3 m c main_v2)).2
    have hfun : ∀ w : Fin 4, (pdats m 1 c).arrAt w (Pipeline.pin (pcfgs (F := F)) adm 1).N = U3 m c (Pipeline.arrRef spec1 w) := fun w => by
      match w with
      | ⟨0, _⟩ => exact ((dat1 (U2 m) c).arrAt_in 0 rfl _).trans ((A_eq1 (U2 m) c 0).trans (W3_of_ne m c main_v2 (by decide)).symm)
      | ⟨1, _⟩ => exact ((dat1 (U2 m) c).arrAt_in 1 rfl _).trans ((A_eq1 (U2 m) c 1).trans (W3_of_ne m c main_v2 (by decide)).symm)
      | ⟨2, _⟩ => exact ((dat1 (U2 m) c).arrAt_in 2 rfl _).trans ((A_eq1 (U2 m) c 2).trans (W3_of_ne m c main_v2 (by decide)).symm)
      | ⟨3, _⟩ => exact (W3_main_v3 m c).symm
    rw [show (pdats m 1 c).arrays (fun w => (pdats m 1 c).arrAt w (Pipeline.pin (pcfgs (F := F)) adm 1).N)
        = (pdats m 1 c).arrays (fun w => U3 m c (Pipeline.arrRef spec1 w)) from congrArg _ (funext hfun)]
    unfold Pipeline.Dat.arrays
    rw [bigSep_W1, hs 0, hs 1, hs 2, hs 3]
    iintro ⟨⟨Ha, Hb, Hc, H3⟩, HO, HY, Hrest⟩
    ihave H2 := hjoin3 $$ [Ha Hb Hc]
    · isplitl [Ha]; · iexact Ha
      isplitl [Hb]; · iexact Hb
      iexact Hc
    imodintro
    isplitl [H2 H3 Hrest]
    · isplitl [H2 H3]
      · isplitl [H2]; · iexact H2
        iexact H3
      iexact Hrest
    isplitl [HY]; · iexact HY
    unfold Pipeline.Dat.owesAt Pipeline.owesWithin
    icases HO with ⟨%W, -, HO⟩; iexists W; iexact HO

/-! ## The program as segments, and the launch -/

/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the final contents, the generator register at some state. -/
abbrev Tₙ (c : Dev nD) : sProp 𝕄 := iprop(StableHlo.held (c : Thread nD τ) (Pipeline.ucRefs τ sig) (W6 m c) ∗ ∃ r, prngReg c r)

/-- The program's six segments in order: reshapes, region 0, region 1, a reshape, region 2, a reshape. -/
abbrev mainSegs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]

theorem main_run (c : Dev nD) : main (F := F) c = Pipeline.Seg.run (mainSegs m) := (main_chain c).trans (by chain_rfl)

set_option backward.isDefEq.respectTransparency.types false in
/-- THE RUN: from any memory with zero counters every weakly fair execution of the program terminates, nothing
    faulting, and the final memory holds every unscoped buffer at the fold's last contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## What the fold leaves in the argument arrays: no reshape writes one, no region changes one -/

theorem W6_of (c : Dev nD) (a : Ref sig .tc) (h0 : a ∉ hostOps0_W) (h2 : a ∉ hostOps2_W) (h3 : a ∉ hostOps3_W) (hv3 : a ≠ main_v3)
    (e2 : W2 m c (Proc.devRef .tc a) = W1 m c (Proc.devRef .tc a)) (e5 : W5 m c (Proc.devRef .tc a) = W4 m c (Proc.devRef .tc a)) :
    W6 m c (Proc.devRef .tc a) = m ((c.tc : Thread nD τ).loc a) :=
  calc W6 m c (Proc.devRef .tc a)
    _ = W5 m c (Proc.devRef .tc a) := StableHlo.after_of_writes_sub hostOps3 _ hostOps3_writes h3
    _ = W4 m c (Proc.devRef .tc a) := e5
    _ = W3 m c (Proc.devRef .tc a) := StableHlo.after_of_writes_sub hostOps2 _ hostOps2_writes h2
    _ = W2 m c (Proc.devRef .tc a) := W3_of_ne m c a hv3
    _ = W1 m c (Proc.devRef .tc a) := e2
    _ = W0 m c (Proc.devRef .tc a) := StableHlo.after_of_writes_sub hostOps0 _ hostOps0_writes h0
    _ = m ((c.tc : Thread nD τ).loc a) := rfl

theorem W6_main_arg0 (c : Dev nD) : W6 m c (Proc.devRef .tc main_arg0) = m ((c.tc : Thread nD τ).loc main_arg0) :=
  W6_of m c main_arg0 (by decide) (by decide) (by decide) (by decide) (W2_of_ne m c main_arg0 (by decide)) (W5_of_ne m c main_arg0 (by decide))
theorem W6_main_arg1 (c : Dev nD) : W6 m c (Proc.devRef .tc main_arg1) = m ((c.tc : Thread nD τ).loc main_arg1) :=
  W6_of m c main_arg1 (by decide) (by decide) (by decide) (by decide)
    ((W2_arr m c 1).trans (((dat0 (U1 m) c).arrAt_in 1 rfl _).trans (A_eq0 (U1 m) c 1))) (W5_of_ne m c main_arg1 (by decide))
theorem W6_main_arg2 (c : Dev nD) : W6 m c (Proc.devRef .tc main_arg2) = m ((c.tc : Thread nD τ).loc main_arg2) :=
  W6_of m c main_arg2 (by decide) (by decide) (by decide) (by decide) (W2_of_ne m c main_arg2 (by decide)) (W5_of_ne m c main_arg2 (by decide))
theorem W6_main_arg3 (c : Dev nD) : W6 m c (Proc.devRef .tc main_arg3) = m ((c.tc : Thread nD τ).loc main_arg3) :=
  W6_of m c main_arg3 (by decide) (by decide) (by decide) (by decide) (W2_of_ne m c main_arg3 (by decide))
    ((W5_arr m c 1).trans (((dat2 (U4 m) c).arrAt_in 1 rfl _).trans (A_eq2 (U4 m) c 1)))
theorem W6_main_arg4 (c : Dev nD) : W6 m c (Proc.devRef .tc main_arg4) = m ((c.tc : Thread nD τ).loc main_arg4) :=
  W6_of m c main_arg4 (by decide) (by decide) (by decide) (by decide) (W2_of_ne m c main_arg4 (by decide)) (W5_of_ne m c main_arg4 (by decide))

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run_main m ρ)

end Cert.Kernel.Hand
end
-- ==== Proof.KI.Body0.lean ====
/- The body half of custom_call 0 (a matrix product plus a bias row): at a parameter `V` — the TensorCore's buffer
   contents when the region is entered — each window's block at a point, what the body leaves in the output
   window's staging buffer as a closed function of the three input blocks, the body's triple, the pipeline's proof
   data and the library's body obligation at every point. -/
import proofs.«109098_j72773925864105_2_alg».proof.Proof.Gen.KernelIdeal.Launch
import proofs.«109098_j72773925864105_2_alg».proof.Proof.Gen.KernelIdeal.Skeleton
import proofs.«109098_j72773925864105_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's whole rectangle -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- Window 3's staging buffer after the body, from the input windows' blocks: its one store, of the product plus
    the bias row, over the whole rectangle. -/
def out0_3 (x0 : Vec F S512x1024 .f32) (x1 : Vec F S1024x3072 .f32) (x2 : Vec F S1x3072 .f32) : Vec F S512x3072 .bf16 :=
  View.canon [⟨r0_3, k0_pay1 (View.ld x0 r0_0) (View.ld x1 r0_1) (View.ld x2 r0_2)⟩]

/-- The store tiles the buffer (checked by evaluation), so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 1000000 in
/-- The kernel body on whole staging memrefs, the inputs' at read contents `xW` and the output's at anything, runs to
    the continuation holding the inputs' as they were and the output's at `out0_3` of the inputs': the printed function
    is its skeleton; the load of the output buffer reads a value nothing uses. -/
theorem sound_kernel0 (c : Dev nD) (E : Set ℕ) (i : grid0.Coords)
    (arg1 : Memref sig .tc .vmem S512x1024 .f32) (harg1 : arg1.IsWhole) (arg2 : Memref sig .tc .vmem S1024x3072 .f32) (harg2 : arg2.IsWhole)
    (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .f32) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/- The attention region's body half: what the attention kernel leaves in its output window's staging buffer, as a
   function of the three input windows' blocks (all three cut from one array), the body's triple, the pipeline's
   proof data and the body obligation at every grid point. -/
import proofs.«109098_j72773925864105_2_alg».proof.Proof.Gen.KernelIdeal.Launch
import proofs.«109098_j72773925864105_2_alg».proof.Proof.Gen.KernelIdeal.Skeleton
import proofs.«109098_j72773925864105_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # The attention region (custom_call 1, pipeline 1), at the entry contents V -/

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is V's and whose body leaves the block in place: unfetched, the block index has not moved;
    the window is uncut and never idle. Window 0 (the query tile), -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- window 1 (the key slab), -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- and window 2 (the value slab). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole query / output tile, -/
abbrev r1_0 : Rect S512x1024 := Rect.unit (s := S512x1024) ![0, 0] S512x1024.size inb_S512x1024_S512x1024_0_0
/-- and the whole key / value slab. -/
abbrev r1_1 : Rect S2048x1024 := Rect.unit (s := S2048x1024) ![0, 0] S2048x1024.size inb_S2048x1024_S2048x1024_0_0

/-! ## What the body leaves in the output window's buffer -/

/-- The value the body's one store writes, from the three loaded blocks: the sixteen heads' results (each a payload
    of the loaded blocks, through the values the body's parts pass on), concatenated and rounded to bf16. -/
def pay1_3 (v0 : Vec F S512x1024 .bf16) (v2 v4 : Vec F S2048x1024 .bf16) : FVec F S512x1024 .bf16 :=
  k1_pay2 (k1_pay6 v0 v2 v4) (k1_pay7 v0 v2 v4)
    (k1_pay10 (k1_pay5 v4) (k1_pay8 v0) (k1_pay9 v2)) (k1_pay11 (k1_pay3 v0) (k1_pay4 v2) (k1_pay5 v4))
    (k1_pay15 (k1_pay12 (k1_pay5 v4)) (k1_pay13 (k1_pay3 v0) (k1_pay4 v2)) (k1_pay14 (k1_pay3 v0) (k1_pay4 v2)))
    (k1_pay16 (k1_pay3 v0) (k1_pay4 v2) (k1_pay5 v4)) (k1_pay17 (k1_pay3 v0) (k1_pay4 v2) (k1_pay5 v4))
    (k1_pay21 (k1_pay18 (k1_pay5 v4)) (k1_pay19 (k1_pay3 v0) (k1_pay4 v2)) (k1_pay20 (k1_pay3 v0) (k1_pay4 v2)))
    (k1_pay22 (k1_pay3 v0) (k1_pay4 v2) (k1_pay5 v4)) (k1_pay23 (k1_pay3 v0) (k1_pay4 v2) (k1_pay5 v4))
    (k1_pay26 (k1_pay24 (k1_pay5 v4)) (k1_pay25 (k1_pay3 v0) (k1_pay4 v2)) (Scalar.ofBits .f32 0x3E000000#32))
    (k1_pay27 (k1_pay3 v0) (k1_pay4 v2) (k1_pay5 v4)) (k1_pay28 (k1_pay3 v0) (k1_pay4 v2) (k1_pay5 v4))
    (k1_pay29 (k1_pay3 v0) (k1_pay4 v2) (k1_pay5 v4)) (k1_pay30 (k1_pay3 v0) (k1_pay4 v2) (k1_pay5 v4))
    (k1_pay1 (k1_pay31 (k1_pay5 v4)) (k1_pay32 (k1_pay3 v0) (k1_pay4 v2)) (k1_pay33 (k1_pay3 v0) (k1_pay4 v2)))

/-- Window 3's staging buffer after the body, from the input windows' blocks: its one store as a piece. -/
def out1_3 (x0 : Vec F S512x1024 .bf16) (x1 x2 : Vec F S2048x1024 .bf16) : Vec F S512x1024 .bf16 :=
  View.canon [⟨r1_0, pay1_3 (View.ld x0 r1_0) (View.ld x1 r1_1) (View.ld x2 r1_1)⟩]

/-- The store covers the whole buffer. -/
theorem cover1_3 (p0 : Vec F S512x1024 .bf16) (y : S512x1024.Idx) :
    ∃ pc ∈ ([⟨r1_0, p0⟩] : List (View.Piece (Elt F) S512x1024 .bf16)), y ∈ pc.1.set :=
  View.cover_of_tiled [⟨r1_0, p0⟩] S512x1024.size (by rfl) y

/-! ## The body's triple -/

set_option maxHeartbeats 4000000 in
/-- The kernel body on whole staging memrefs, the inputs' at read contents and the output's at anything, runs to the
    continuation holding the inputs' as they were and the output's at out1_3 of the inputs'. -/
theorem sound_kernel1 (c : Dev nD) (E : Set ℕ) (i : grid1.Coords)
    (arg0 : Memref sig .tc .vmem S512x1024 .bf16) (harg0 : arg0.IsWhole) (arg1 : Memref sig .tc .vmem S2048x1024 .bf16) (harg1 : arg1.IsWhole)
    (arg2 : Memref sig .tc .vmem S2048x1024 .bf16) (harg2 : arg2.IsWhole) (arg3 : Memref sig .tc .vmem S512x1024 .bf16) (harg3 : arg3.IsWhole)
    (x0 : Vec F S512x1024 .bf16) (x1 x2 : Vec F S2048x1024 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core c: the arrays as the region finds them (V); after the body at point t each
    input's buffer at its block and the output's at out1_3 of the three input blocks; the invariant the scoped rest
    and the generator register, untouched; nothing owed. The three input windows are cut from one array, so they split
    its share between them: the left half, and the two halves of the right half; the output's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := fun w => match w with
    | ⟨0, _⟩ => fullShare.left
    | ⟨1, _⟩ => fullShare.right.left
    | ⟨2, _⟩ => fullShare.right.right
    | ⟨3, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's owed tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Body2.lean ====
/- The body half of custom_call 2 (a matrix product plus a bias row): at a parameter `V` — the TensorCore's buffer
   contents when the region is entered — each window's block at a point, what the body leaves in the output
   window's staging buffer as a closed function of the three input blocks, the body's triple, the pipeline's proof
   data and the library's body obligation at every point. -/
import proofs.«109098_j72773925864105_2_alg».proof.Proof.Gen.KernelIdeal.Launch
import proofs.«109098_j72773925864105_2_alg».proof.Proof.Gen.KernelIdeal.Skeleton
import proofs.«109098_j72773925864105_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window's whole rectangle -/

abbrev r2_0 : Rect S1024x1024 := Rect.unit (s := S1024x1024) ![0, 0] S1024x1024.size inb_S1024x1024_S1024x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S1024x1024 := Rect.unit (s := S1024x1024) ![0, 0] S1024x1024.size inb_S1024x1024_S1024x1024_0_0

/-! ## What the body leaves in the output window's buffer -/

/-- Window 3's staging buffer after the body, from the input windows' blocks: its one store, of the product plus
    the bias row, over the whole rectangle. -/
def out2_3 (x0 : Vec F S1024x1024 .bf16) (x1 : Vec F S1024x1024 .f32) (x2 : Vec F S1x1024 .f32) : Vec F S1024x1024 .f32 :=
  View.canon [⟨r2_3, k2_pay1 (View.ld x0 r2_0) (View.ld x1 r2_1) (View.ld x2 r2_2)⟩]

/-- The store tiles the buffer (checked by evaluation), so it covers it. -/
theorem cover2_3 (p0 : Vec F S1024x1024 .f32) (y : S1024x1024.Idx) :
    ∃ pc ∈ ([⟨r2_3, p0⟩] : List (View.Piece (Elt F) S1024x1024 .f32)), y ∈ pc.1.set :=
  View.cover_of_tiled [⟨r2_3, p0⟩] S1024x1024.size (by rfl) y

/-! ## The body's triple -/

set_option maxHeartbeats 1000000 in
/-- The kernel body on whole staging memrefs, the inputs' at read contents `xW` and the output's at anything, runs to
    the continuation holding the inputs' as they were and the output's at `out2_3` of the inputs': the printed function
    is its skeleton; the load of the output buffer reads a value nothing uses. -/
theorem sound_kernel2 (c : Dev nD) (E : Set ℕ) (i : grid2.Coords)
    (arg1 : Memref sig .tc .vmem S1024x1024 .bf16) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_bias_kernel i arg1 harg1 arg2 harg2 arg3 harg3 arg4 harg4) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The program's run, for any float instance: @main is two reshapes, the projection region, the attention region, a
  reshape, the output projection region and a last reshape.  The contents of the unscoped buffers are followed
  through these six segments (`W0` … `W6`): a reshape stretch applies its operations, a region replaces its
  output array by what its grid points wrote back and leaves everything else.  Each region enters the pipeline
  rule with its arrays split out of the buffers and leaves with them put back; the attention region reads ONE
  array through three windows, so that array's share is dealt among them (a half and two quarters) on the way in
  and joined on the way out.  `run_main` is the launch over the six segments; `frame` reads the five argument
  arrays off the last contents, where no segment has written them.
-/
import proofs.«109098_j72773925864105_2_alg».proof.Proof.Gen.KernelIdeal.Launch
import proofs.«109098_j72773925864105_2_alg».proof.Proof.Gen.KernelIdeal.Skeleton
import proofs.«109098_j72773925864105_2_alg».proof.Proof.Gen.KernelIdeal.Points
import proofs.«109098_j72773925864105_2_alg».proof.Proof.Gen.KernelIdeal.Regions
import proofs.«109098_j72773925864105_2_alg».proof.Proof.KI.Body0
import proofs.«109098_j72773925864105_2_alg».proof.Proof.KI.Body1
import proofs.«109098_j72773925864105_2_alg».proof.Proof.KI.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of the program: a fold from the launch memory -/

/-- At launch. -/
abbrev W0 : Dev nD → Valuation τ sig (Elt F) := fun c b => m (c, b)
/-- After the first two reshapes (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- After region 0: its arrays at what the pipeline leaves (the inputs as entered, the output's write-backs folded),
    every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After region 1: only its output array changes (its three input windows read one array, which stays). -/
def W3 (c : Dev nD) : Valuation τ sig (Elt F) :=
  Function.update (W2 m c) main_v3 ((dat1 (U2 m) c).arrAt 3 cfg1.N)
abbrev U3 : (c : Dev nD) → (b : Ref sig .tc) → Buf (Elt F) ((c : Thread nD τ).loc b) := fun c b => W3 m c b
/-- After the bias's reshape (region 2's entry). -/
abbrev W4 : Dev nD → Valuation τ sig (Elt F) := fun c => StableHlo.after hostOps2 (W3 m c)
abbrev U4 : (c : Dev nD) → (b : Ref sig .tc) → Buf (Elt F) ((c : Thread nD τ).loc b) := fun c b => W4 m c b

/-- After region 2: its arrays at what the pipeline leaves (the inputs as entered, the output's write-backs folded),
    every other buffer as entered. -/
def W5 (c : Dev nD) : Valuation τ sig (Elt F) :=
  Pipeline.withArrays spec2 c (W4 m c) fun w => (dat2 (U4 m) c).arrAt w cfg2.N
theorem W5_arr (c : Dev nD) (w : Fin cfg2.W) :
    W5 m c (Proc.devRef .tc (Pipeline.arrRef spec2 w)) = (dat2 (U4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev U5 : (c : Dev nD) → (b : Ref sig .tc) → Buf (Elt F) ((c : Thread nD τ).loc b) := fun c b => W5 m c b
theorem hF2 (c : Dev nD) (w : Fin cfg2.W) : (dat2 (U4 m) c).arrAt w cfg2.N = U5 m c (Pipeline.arrRef spec2 w) :=
  (W5_arr m c w).symm
theorem hrest2 (c : Dev nD) : ∀ b, b ∉ Finset.univ.image (Pipeline.arrRef spec2) → U5 m c b = U4 m c b :=
  fun b hb => W5_of_ne m c b fun w e => hb (Finset.mem_image.mpr ⟨w, Finset.mem_univ _, e⟩)

/-- After the last reshape. -/
abbrev W6 : Dev nD → Valuation τ sig (Elt F) := fun c => StableHlo.after hostOps3 (W5 m c)

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
  | ⟨2, _⟩ => fun c => dat2 (U4 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state: entered with every unscoped buffer at the contents before it, left with the
    output array at what the write-backs leave; the generator register goes into the kernel's invariant and comes
    back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with the
    output array at what the write-backs leave; the generator register goes into the kernel's invariant and comes
    back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U4 m c) (U5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The two distinct buffers behind region 1's four windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3) ↦{fullShare} V main_v3)) := by
  unfold Pipeline.arrBufs; exact bigSep_eq_bigSepL_of_eq [main_v2, main_v3] (by decide) (by decide) _

/-- One array read by three windows: its full share dealt as a half and two quarters, and put back. -/
theorem share3 {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  have h1 : (ℓ ↦{fullShare} f : sProp 𝕄) ⊣⊢ iprop((ℓ ↦{fullShare.left} f) ∗ ℓ ↦{fullShare.right} f) :=
    pointsTo_share (PosShare.mem_left_op_right fullShare)
  have h2 : (ℓ ↦{fullShare.right} f : sProp 𝕄) ⊣⊢ iprop((ℓ ↦{fullShare.right.left} f) ∗ ℓ ↦{fullShare.right.right} f) :=
    pointsTo_share (PosShare.mem_left_op_right fullShare.right)
  exact ⟨h1.1.trans (sep_mono .rfl h2.1), (sep_mono .rfl h2.2).trans h1.2⟩

theorem W3_main_v3 (c : Dev nD) : U3 m c main_v3 = (dat1 (U2 m) c).arrAt 3 cfg1.N := by
  show Function.update (W2 m c) _ _ _ = _
  exact Function.update_self ..
theorem W3_of_ne (c : Dev nD) (b : Ref sig .tc) (hb : b ≠ main_v3) : U3 m c b = U2 m c b := by
  show Function.update (W2 m c) _ _ _ = _
  exact Function.update_of_ne (StableHlo.devRef_ne_of_ne hb) ..

set_option backward.isDefEq.respectTransparency.types false in
/-- Region 1 over the thread state. Its three input windows read ONE array, so that array's full share is dealt
    among them at the entry (a half and two quarters) and joined again at the exit; only the output array changes. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit : (unscopedBufs c (U2 m c) : sProp 𝕄) = iprop(Pipeline.arrBufs spec1 c (U2 m c) ∗ Pipeline.unscopedRest spec1 c (U2 m c)) :=
      Pipeline.unscopedBufs_split₀ (Pipeline.pin (pcfgs (F := F)) adm) 1 winFacts₀1.arr_unscoped c (U2 m c)
    rw [Pipeline.unscopedBufs_held, arrBufs1_eq] at hsplit
    rw [hsplit]
    have hs : ∀ w : Fin 4, ((Pipeline.pin (pcfgs (F := F)) adm 1).win w).arr.view.set = Finset.univ := fun w => (arr_whole1 w).set_eq_univ
    have hdeal := (share3 (F := F) (U2 m c main_v2)).1
    iintro ⟨⟨Hbufs, Hp, HO⟩, -, -⟩
    icases Hbufs with ⟨Harr, Hrest⟩
    icases Harr with ⟨H2, H3⟩
    ihave H2' := hdeal $$ H2
    icases H2' with ⟨Ha, Hb, Hc⟩
    imodintro
    isplitl [Ha Hb Hc H3]
    · unfold Pipeline.Dat.arrays
      rw [bigSep_W1, hs 0, hs 1, hs 2, hs 3]
      isplitl [Ha]; · iexact Ha
      isplitl [Hb]; · iexact Hb
      isplitl [Hc]; · iexact Hc
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit : (unscopedBufs c (U3 m c) : sProp 𝕄) = iprop(Pipeline.arrBufs spec1 c (U3 m c) ∗ Pipeline.unscopedRest spec1 c (U3 m c)) :=
      Pipeline.unscopedBufs_split₀ (Pipeline.pin (pcfgs (F := F)) adm) 1 winFacts₀1.arr_unscoped c (U3 m c)
    rw [Pipeline.unscopedBufs_held, arrBufs1_eq] at hsplit
    have hrest : (Pipeline.unscopedRest (Ix := Unit) (Name := ℕ) (U := UR sig nD τ) (Lvl := ℕ) spec1 c (U3 m c) : sProp 𝕄)
        = Pipeline.unscopedRest spec1 c (U2 m c) := by
      unfold Pipeline.unscopedRest
      exact bigSep_congr fun b hb => by
        rw [W3_of_ne m c b fun e => (Finset.mem_sdiff.mp hb).2 (Finset.mem_image.mpr ⟨3, Finset.mem_univ _, e.symm⟩)]
    rw [hsplit, hrest]
    have hs : ∀ w : Fin 4, ((Pipeline.pin (pcfgs (F := F)) adm 1).win w).arr.view.set = Finset.univ := fun w => (arr_whole1 w).set_eq_univ
    have hjoin3 := (share3 (F := F) (U3 m c main_v2)).2
    have hfun : ∀ w : Fin 4, (pdats m 1 c).arrAt w (Pipeline.pin (pcfgs (F := F)) adm 1).N = U3 m c (Pipeline.arrRef spec1 w) := fun w => by
      match w with
      | ⟨0, _⟩ => exact ((dat1 (U2 m) c).arrAt_in 0 rfl _).trans ((A_eq1 (U2 m) c 0).trans (W3_of_ne m c main_v2 (by decide)).symm)
      | ⟨1, _⟩ => exact ((dat1 (U2 m) c).arrAt_in 1 rfl _).trans ((A_eq1 (U2 m) c 1).trans (W3_of_ne m c main_v2 (by decide)).symm)
      | ⟨2, _⟩ => exact ((dat1 (U2 m) c).arrAt_in 2 rfl _).trans ((A_eq1 (U2 m) c 2).trans (W3_of_ne m c main_v2 (by decide)).symm)
      | ⟨3, _⟩ => exact (W3_main_v3 m c).symm
    rw [show (pdats m 1 c).arrays (fun w => (pdats m 1 c).arrAt w (Pipeline.pin (pcfgs (F := F)) adm 1).N)
        = (pdats m 1 c).arrays (fun w => U3 m c (Pipeline.arrRef spec1 w)) from congrArg _ (funext hfun)]
    unfold Pipeline.Dat.arrays
    rw [bigSep_W1, hs 0, hs 1, hs 2, hs 3]
    iintro ⟨⟨Ha, Hb, Hc, H3⟩, HO, HY, Hrest⟩
    ihave H2 := hjoin3 $$ [Ha Hb Hc]
    · isplitl [Ha]; · iexact Ha
      isplitl [Hb]; · iexact Hb
      iexact Hc
    imodintro
    isplitl [H2 H3 Hrest]
    · isplitl [H2 H3]
      · isplitl [H2]; · iexact H2
        iexact H3
      iexact Hrest
    isplitl [HY]; · iexact HY
    unfold Pipeline.Dat.owesAt Pipeline.owesWithin
    icases HO with ⟨%W, -, HO⟩; iexists W; iexact HO

/-! ## The program as segments, and the launch -/

/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the final contents, the generator register at some state. -/
abbrev Tₙ (c : Dev nD) : sProp 𝕄 := iprop(StableHlo.held (c : Thread nD τ) (Pipeline.ucRefs τ sig) (W6 m c) ∗ ∃ r, prngReg c r)

/-- The program's six segments in order: reshapes, region 0, region 1, a reshape, region 2, a reshape. -/
abbrev mainSegs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]

theorem main_run (c : Dev nD) : main (F := F) c = Pipeline.Seg.run (mainSegs m) := (main_chain c).trans (by chain_rfl)

set_option backward.isDefEq.respectTransparency.types false in
/-- THE RUN: from any memory with zero counters every weakly fair execution of the program terminates, nothing
    faulting, and the final memory holds every unscoped buffer at the fold's last contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## What the fold leaves in the argument arrays: no reshape writes one, no region changes one -/

theorem W6_of (c : Dev nD) (a : Ref sig .tc) (h0 : a ∉ hostOps0_W) (h2 : a ∉ hostOps2_W) (h3 : a ∉ hostOps3_W) (hv3 : a ≠ main_v3)
    (e2 : W2 m c (Proc.devRef .tc a) = W1 m c (Proc.devRef .tc a)) (e5 : W5 m c (Proc.devRef .tc a) = W4 m c (Proc.devRef .tc a)) :
    W6 m c (Proc.devRef .tc a) = m ((c.tc : Thread nD τ).loc a) :=
  calc W6 m c (Proc.devRef .tc a)
    _ = W5 m c (Proc.devRef .tc a) := StableHlo.after_of_writes_sub hostOps3 _ hostOps3_writes h3
    _ = W4 m c (Proc.devRef .tc a) := e5
    _ = W3 m c (Proc.devRef .tc a) := StableHlo.after_of_writes_sub hostOps2 _ hostOps2_writes h2
    _ = W2 m c (Proc.devRef .tc a) := W3_of_ne m c a hv3
    _ = W1 m c (Proc.devRef .tc a) := e2
    _ = W0 m c (Proc.devRef .tc a) := StableHlo.after_of_writes_sub hostOps0 _ hostOps0_writes h0
    _ = m ((c.tc : Thread nD τ).loc a) := rfl

theorem W6_main_arg0 (c : Dev nD) : W6 m c (Proc.devRef .tc main_arg0) = m ((c.tc : Thread nD τ).loc main_arg0) :=
  W6_of m c main_arg0 (by decide) (by decide) (by decide) (by decide) (W2_of_ne m c main_arg0 (by decide)) (W5_of_ne m c main_arg0 (by decide))
theorem W6_main_arg1 (c : Dev nD) : W6 m c (Proc.devRef .tc main_arg1) = m ((c.tc : Thread nD τ).loc main_arg1) :=
  W6_of m c main_arg1 (by decide) (by decide) (by decide) (by decide)
    ((W2_arr m c 1).trans (((dat0 (U1 m) c).arrAt_in 1 rfl _).trans (A_eq0 (U1 m) c 1))) (W5_of_ne m c main_arg1 (by decide))
theorem W6_main_arg2 (c : Dev nD) : W6 m c (Proc.devRef .tc main_arg2) = m ((c.tc : Thread nD τ).loc main_arg2) :=
  W6_of m c main_arg2 (by decide) (by decide) (by decide) (by decide) (W2_of_ne m c main_arg2 (by decide)) (W5_of_ne m c main_arg2 (by decide))
theorem W6_main_arg3 (c : Dev nD) : W6 m c (Proc.devRef .tc main_arg3) = m ((c.tc : Thread nD τ).loc main_arg3) :=
  W6_of m c main_arg3 (by decide) (by decide) (by decide) (by decide) (W2_of_ne m c main_arg3 (by decide))
    ((W5_arr m c 1).trans (((dat2 (U4 m) c).arrAt_in 1 rfl _).trans (A_eq2 (U4 m) c 1)))
theorem W6_main_arg4 (c : Dev nD) : W6 m c (Proc.devRef .tc main_arg4) = m ((c.tc : Thread nD τ).loc main_arg4) :=
  W6_of m c main_arg4 (by decide) (by decide) (by decide) (by decide) (W2_of_ne m c main_arg4 (by decide)) (W5_of_ne m c main_arg4 (by decide))

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run_main m ρ)

end Cert.KernelIdeal.Hand
end
-- ==== Proof.KI.Head.lean ====
/- One attention head on a 512-row query tile, at the extended reals: from the head's 64 query columns qh, its 64
   key columns kh and its 64 value columns vh, the scaled scores q k^T / 8, their row maxima, the exponentials of the
   differences, the row sums, the quotients, and the quotients' product with the values. Read at row p and column d
   this is  sum_j  exp (s_j - m) / (sum_j' exp (s_j' - m)) * vh (j, d)  with  s_j = (sum_e qh (p, e) * kh (j, e)) / 8
   and m the largest s_j. -/
import proofs.«109098_j72773925864105_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Facts₀
open Idealize.ShloMosaic Idealize.ShloMosaic.ValueIdx

/-! ## Two keepdims layout steps read at an index -/

section Layout
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two products read at an index -/

/-- The scores' product q k^T: both operands contracted along their columns. -/
abbrev Dqk : DotDims S512x64 S2048x64 S512x2048 := dot_S512x64_S2048x64_S512x2048_1_1_0_0_n_n
/-- The weights' product with the values: rows times columns. -/
abbrev Dpv : DotDims S512x2048 S2048x64 S512x64 := dot_S512x2048_S2048x64_S512x64_1_0_0_1_n_n

theorem qk_lhs_0 (i : S512x2048.Idx) (q : Dqk.contr.Idx) : (Dqk.lhsIdx i q 0).val = (i 0).val := by
  unfold DotDims.lhsIdx
  rw [dif_neg (show ¬(0 : Fin S512x64.rank) ∈ Dqk.lhsBatch by decide), dif_pos (show (0 : Fin S512x64.rank) ∈ Dqk.lhsNonContracting by decide)]
  rfl
theorem qk_lhs_1 (i : S512x2048.Idx) (q : Dqk.contr.Idx) : (Dqk.lhsIdx i q 1).val = (q ⟨0, by decide⟩).val :=
  Dqk.lhsIdx_val_of_single rfl i q
theorem qk_rhs_0 (i : S512x2048.Idx) (q : Dqk.contr.Idx) : (Dqk.rhsIdx i q 0).val = (i 1).val := by
  unfold DotDims.rhsIdx
  rw [dif_neg (show ¬(0 : Fin S2048x64.rank) ∈ Dqk.rhsBatch by decide), dif_pos (show (0 : Fin S2048x64.rank) ∈ Dqk.rhsNonContracting by decide)]
  rfl
theorem qk_rhs_1 (i : S512x2048.Idx) (q : Dqk.contr.Idx) : (Dqk.rhsIdx i q 1).val = (q ⟨0, by decide⟩).val :=
  Dqk.rhsIdx_val_of_single rfl i q

/-- The scores' product at (p, j) is the dot product of row p of the queries with row j of the keys. -/
theorem mm_qk_apply (a : FVec Ideal S512x64 .bf16) (b : FVec Ideal S2048x64 .bf16) (p : Fin 512) (j : Fin 2048) :
    matmul dot_S512x64_S2048x64_S512x2048_1_1_0_0_n_n none a b (constant (F := Ideal) S512x2048 .f32 0x00000000#32) (ix2 p j)
      = ∑ e : Fin 64, a (ix2 p e) * b (ix2 j e) := by
  simp only [matmul]
  rw [Ideal.matmul_constant_zero_apply, ← Equiv.sum_comp (contrEquiv1 Dqk 64 rfl rfl).symm]
  refine Finset.sum_congr rfl fun k _ => ?_
  have hk := contrEquiv1_symm_val Dqk 64 rfl rfl k
  have el : Dqk.lhsIdx (ix2 p j) ((contrEquiv1 Dqk 64 rfl rfl).symm k) = ix2 p k :=
    funext fun ax => Fin.ext (by
      match ax with
      | ⟨0, _⟩ => exact qk_lhs_0 _ _
      | ⟨1, _⟩ => exact (qk_lhs_1 _ _).trans hk)
  have er : Dqk.rhsIdx (ix2 p j) ((contrEquiv1 Dqk 64 rfl rfl).symm k) = ix2 j k :=
    funext fun ax => Fin.ext (by
      match ax with
      | ⟨0, _⟩ => exact qk_rhs_0 _ _
      | ⟨1, _⟩ => exact (qk_rhs_1 _ _).trans hk)
  rw [el, er]

theorem pv_lhs_0 (i : S512x64.Idx) (q : Dpv.contr.Idx) : (Dpv.lhsIdx i q 0).val = (i 0).val := by
  unfold DotDims.lhsIdx
  rw [dif_neg (show ¬(0 : Fin S512x2048.rank) ∈ Dpv.lhsBatch by decide), dif_pos (show (0 : Fin S512x2048.rank) ∈ Dpv.lhsNonContracting by decide)]
  rfl
theorem pv_lhs_1 (i : S512x64.Idx) (q : Dpv.contr.Idx) : (Dpv.lhsIdx i q 1).val = (q ⟨0, by decide⟩).val :=
  Dpv.lhsIdx_val_of_single rfl i q
theorem pv_rhs_0 (i : S512x64.Idx) (q : Dpv.contr.Idx) : (Dpv.rhsIdx i q 0).val = (q ⟨0, by decide⟩).val :=
  Dpv.rhsIdx_val_of_single rfl i q
theorem pv_rhs_1 (i : S512x64.Idx) (q : Dpv.contr.Idx) : (Dpv.rhsIdx i q 1).val = (i 1).val := by
  unfold DotDims.rhsIdx
  rw [dif_neg (show ¬(1 : Fin S2048x64.rank) ∈ Dpv.rhsBatch by decide), dif_pos (show (1 : Fin S2048x64.rank) ∈ Dpv.rhsNonContracting by decide)]
  rfl

/-- The weights' product with the values at (p, d) is the sum over the keys of the weight at (p, j) times the value
    at (j, d). -/
theorem mm_pv_apply (a : FVec Ideal S512x2048 .bf16) (b : FVec Ideal S2048x64 .bf16) (p : Fin 512) (d : Fin 64) :
    matmul dot_S512x2048_S2048x64_S512x64_1_0_0_1_n_n none a b (constant (F := Ideal) S512x64 .f32 0x00000000#32) (ix2 p d)
      = ∑ j : Fin 2048, a (ix2 p j) * b (ix2 j d) := by
  simp only [matmul]
  rw [Ideal.matmul_constant_zero_apply, ← Equiv.sum_comp (contrEquiv1 Dpv 2048 rfl rfl).symm]
  refine Finset.sum_congr rfl fun k _ => ?_
  have hk := contrEquiv1_symm_val Dpv 2048 rfl rfl k
  have el : Dpv.lhsIdx (ix2 p d) ((contrEquiv1 Dpv 2048 rfl rfl).symm k) = ix2 p k :=
    funext fun ax => Fin.ext (by
      match ax with
      | ⟨0, _⟩ => exact pv_lhs_0 _ _
      | ⟨1, _⟩ => exact (pv_lhs_1 _ _).trans hk)
  have er : Dpv.rhsIdx (ix2 p d) ((contrEquiv1 Dpv 2048 rfl rfl).symm k) = ix2 k d :=
    funext fun ax => Fin.ext (by
      match ax with
      | ⟨0, _⟩ => exact (pv_rhs_0 _ _).trans hk
      | ⟨1, _⟩ => exact pv_rhs_1 _ _)
  rw [el, er]

/-! ## One head, as the operations compute it -/

/-- The scaled scores: q k^T times the word of 1/8. -/
def hscore (qh : FVec Ideal S512x64 .bf16) (kh : FVec Ideal S2048x64 .bf16) : FVec Ideal S512x2048 .f32 :=
  mulf (matmul dot_S512x64_S2048x64_S512x2048_1_1_0_0_n_n none qh kh (constant S512x2048 .f32 0x00000000#32))
    (broadcast S512x2048 (Scalar.ofBits .f32 0x3E000000#32))

/-- The exponentials of the scores less their row's maximum (the maximum taken from the word of minus infinity, kept
    as a column and broadcast along the row). -/
def hexp (qh : FVec Ideal S512x64 .bf16) (kh : FVec Ideal S2048x64 .bf16) : FVec Ideal S512x2048 .f32 :=
  exp (subf (hscore qh kh)
    (broadcastTo S512x2048
      (shapeCast S512x1 (multiReduction .maximumf [1] S512 (hscore qh kh) 0xFF800000#32 reduces_S512x2048_S512 (.inl rfl) rfl) shapeCasts_S512_S512x1)
      broadcasts_S512x1_S512x2048))

/-- The exponentials over their row's sum (kept as a column and broadcast along the row), in the narrower format. -/
def hprob (qh : FVec Ideal S512x64 .bf16) (kh : FVec Ideal S2048x64 .bf16) : FVec Ideal S512x2048 .bf16 :=
  truncf .bf16 (divf (hexp qh kh)
    (broadcastTo S512x2048
      (shapeCast S512x1 (multiReduction .add [1] S512 (hexp qh kh) 0x00000000#32 reduces_S512x2048_S512 (.inl rfl) rfl) shapeCasts_S512_S512x1)
      broadcasts_S512x1_S512x2048)) bitsLt_bf16_f32

/-- The head's result: the weights times the values. -/
def head (qh : FVec Ideal S512x64 .bf16) (kh vh : FVec Ideal S2048x64 .bf16) : FVec Ideal S512x64 .f32 :=
  matmul dot_S512x2048_S2048x64_S512x64_1_0_0_1_n_n none (hprob qh kh) vh (constant S512x64 .f32 0x00000000#32)

/-! ## One head, in closed form -/

/-- Row p's score against key j: the dot product over the head's 64 columns, scaled. -/
def hs (qh : FVec Ideal S512x64 .bf16) (kh : FVec Ideal S2048x64 .bf16) (p : Fin 512) (j : Fin 2048) : EReal :=
  (∑ e : Fin 64, qh (ix2 p e) * kh (ix2 j e)) * Ideal.ofBits .f32 0x3E000000#32

/-- Row p's largest score. -/
def hm (qh : FVec Ideal S512x64 .bf16) (kh : FVec Ideal S2048x64 .bf16) (p : Fin 512) : EReal :=
  (Finset.univ : Finset (Fin 2048)).fold max (Ideal.ofBits .f32 0xFF800000#32) (hs qh kh p)

/-- The index a reduction along the row inserts at row p. -/
theorem lift_row (p : Fin 512) (k : Fin 2048) :
    (reduces_S512x2048_S512 : S512x2048.Reduces [1] S512).lift (ix1 p) k = ix2 p k := by
  funext ax
  match ax with
  | ⟨0, _⟩ => rfl
  | ⟨1, _⟩ => rfl

theorem hscore_apply (qh : FVec Ideal S512x64 .bf16) (kh : FVec Ideal S2048x64 .bf16) (p : Fin 512) (j : Fin 2048) :
    hscore qh kh (ix2 p j) = hs qh kh p j := by
  unfold hscore hs
  rw [mulf_apply, mm_qk_apply]
  rfl

/-- A row's kept-dimension column broadcast back along the row reads the row's value. -/
theorem keep_row_apply (v : FVec Ideal S512 .f32) (p : Fin 512) (j : Fin 2048) :
    broadcastTo S512x2048 (shapeCast S512x1 v shapeCasts_S512_S512x1) broadcasts_S512x1_S512x2048 (ix2 p j) = v (ix1 p) := by
  refine (broadcastTo_a1_ab_apply _ broadcasts_S512x1_S512x2048 p j).trans ?_
  exact shapeCast_a_a1_apply v shapeCasts_S512_S512x1 p 0

theorem hmax_apply (qh : FVec Ideal S512x64 .bf16) (kh : FVec Ideal S2048x64 .bf16) (p : Fin 512) :
    multiReduction .maximumf [1] S512 (hscore qh kh) 0xFF800000#32 reduces_S512x2048_S512 (.inl rfl) rfl (ix1 p) = hm qh kh p := by
  refine (Ideal.multiReduction_maximumf_single (hscore qh kh) 0xFF800000#32 reduces_S512x2048_S512 (.inl rfl) rfl (ix1 p)).trans ?_
  unfold hm
  have hf : (hscore qh kh ∘ (reduces_S512x2048_S512 : S512x2048.Reduces [1] S512).lift (ix1 p)) = hs qh kh p :=
    funext fun k => (congrArg (hscore qh kh) (lift_row p k)).trans (hscore_apply qh kh p k)
  rw [hf]
  rfl

theorem hexp_apply (qh : FVec Ideal S512x64 .bf16) (kh : FVec Ideal S2048x64 .bf16) (p : Fin 512) (j : Fin 2048) :
    hexp qh kh (ix2 p j) = Ideal.exp (hs qh kh p j - hm qh kh p) := by
  unfold hexp
  show Ideal.exp (subf (hscore qh kh) _ (ix2 p j)) = _
  rw [subf_apply, keep_row_apply, hmax_apply, hscore_apply]

theorem hsum_apply (qh : FVec Ideal S512x64 .bf16) (kh : FVec Ideal S2048x64 .bf16) (p : Fin 512) :
    multiReduction .add [1] S512 (hexp qh kh) 0x00000000#32 reduces_S512x2048_S512 (.inl rfl) rfl (ix1 p)
      = ∑ j : Fin 2048, Ideal.exp (hs qh kh p j - hm qh kh p) := by
  refine (Ideal.multiReduction_add_single (hexp qh kh) 0x00000000#32 reduces_S512x2048_S512 (.inl rfl) rfl (ix1 p)).trans ?_
  exact Finset.sum_congr rfl fun k _ => (congrArg (hexp qh kh) (lift_row p k)).trans (hexp_apply qh kh p k)

theorem hprob_apply (qh : FVec Ideal S512x64 .bf16) (kh : FVec Ideal S2048x64 .bf16) (p : Fin 512) (j : Fin 2048) :
    hprob qh kh (ix2 p j)
      = Ideal.div (Ideal.exp (hs qh kh p j - hm qh kh p)) (∑ j' : Fin 2048, Ideal.exp (hs qh kh p j' - hm qh kh p)) := by
  unfold hprob
  rw [truncf_apply, divf_apply, keep_row_apply, hsum_apply, hexp_apply]

/-- **One head in closed form**: the softmax weights of row p against the 2048 keys, applied to value column d. -/
theorem head_apply (qh : FVec Ideal S512x64 .bf16) (kh vh : FVec Ideal S2048x64 .bf16) (p : Fin 512) (d : Fin 64) :
    head qh kh vh (ix2 p d)
      = ∑ j : Fin 2048, Ideal.div (Ideal.exp (hs qh kh p j - hm qh kh p)) (∑ j' : Fin 2048, Ideal.exp (hs qh kh p j' - hm qh kh p))
          * vh (ix2 j d) := by
  unfold head
  rw [mm_pv_apply]
  refine Finset.sum_congr rfl fun j _ => ?_
  rw [hprob_apply]

end Cert.KernelIdeal.Hand

end
-- ==== Proof.Spec.lean ====
/-
  The mathematics both programs compute, on the extended reals.

  Arrays are read as functions of a row and a column.  With X the 8192 x 1024 matrix of the input's rows (batch b,
  position t at row 2048 b + t), the result is

      lin (attn (lin X W_qkv b_qkv)) W_out b_out

  where `lin a w b` is the matrix product plus a row of biases, and `attn q` is, for every batch and every head
  h of 16, the softmax attention of the head's 64 query columns (columns 64 h + e of q) against the batch's 2048
  key rows (columns 1024 + 64 h + e) with the scale 1/8, applied to the head's value columns (2048 + 64 h + d):
  the row's scores are the scaled dot products, the row's maximum is subtracted, the exponentials are divided by
  their sum, and the quotients weigh the value rows.  Nothing here mentions either program.
-/
import Idealize.ShloMosaic.PureOps.Ideal
import Idealize.ShloMosaic.PureOps.Ideal.Laws
import Idealize.ShloMosaic.Lib.ValueIdx

noncomputable section

namespace Cert.Attn

open Idealize.ShloMosaic

/-- A matrix of extended reals as a function of its row and its column. -/
abbrev Mat (M N : ℕ) : Type := Fin M → Fin N → EReal

/-- The matrix product of `a` and `w` plus the bias `b` of the column. -/
def lin {M K N : ℕ} (a : Mat M K) (w : Mat K N) (b : Fin N → EReal) : Mat M N :=
  fun r c => (∑ k : Fin K, a r k * w k c) + b c

/-- The softmax scale 1/8, as the float word both programs multiply by. -/
def scale : EReal := Ideal.ofBits .f32 0x3E000000#32

/-- The `j`-th key / value row of the batch that row `r` belongs to. -/
def krow (r : Fin 8192) (j : Fin 2048) : Fin 8192 := ⟨2048 * (r.val / 2048) + j.val, by have := r.isLt; have := j.isLt; omega⟩
/-- Column `e` of head `h`'s queries, keys, and the value column under output column `c`. -/
def qcol (h : Fin 16) (e : Fin 64) : Fin 3072 := ⟨64 * h.val + e.val, by have := h.isLt; have := e.isLt; omega⟩
def kcol (h : Fin 16) (e : Fin 64) : Fin 3072 := ⟨1024 + (64 * h.val + e.val), by have := h.isLt; have := e.isLt; omega⟩
def vcol (c : Fin 1024) : Fin 3072 := ⟨2048 + c.val, by have := c.isLt; omega⟩
/-- The head an output column belongs to. -/
def headOf (c : Fin 1024) : Fin 16 := ⟨c.val / 64, by have := c.isLt; omega⟩

/-- Row `r`'s score against key `j` in head `h`: the dot product over the head's 64 columns, scaled. -/
def score (q : Mat 8192 3072) (r : Fin 8192) (h : Fin 16) (j : Fin 2048) : EReal :=
  (∑ e : Fin 64, q r (qcol h e) * q (krow r j) (kcol h e)) * scale

/-- The row's largest score (the fold of `max` from minus infinity over the 2048 keys). -/
def rowMax (q : Mat 8192 3072) (r : Fin 8192) (h : Fin 16) : EReal :=
  (Finset.univ : Finset (Fin 2048)).fold max (Ideal.ofBits .f32 0xFF800000#32) (score q r h)

/-- The exponential of a score less the row's maximum, -/
def num (q : Mat 8192 3072) (r : Fin 8192) (h : Fin 16) (j : Fin 2048) : EReal :=
  Ideal.exp (score q r h j - rowMax q r h)

/-- and the sum of the row's exponentials. -/
def den (q : Mat 8192 3072) (r : Fin 8192) (h : Fin 16) : EReal := ∑ j : Fin 2048, num q r h j

/-- Softmax attention of every head: the value rows weighed by the normalized exponentials. -/
def attn (q : Mat 8192 3072) : Mat 8192 1024 := fun r c =>
  ∑ j : Fin 2048, Ideal.div (num q r (headOf c) j) (den q r (headOf c)) * q (krow r j) (vcol c)

/-- The whole computation, from the input's rows `x`, the two weight matrices and the two biases. -/
def mha (x : Mat 8192 1024) (wqkv : Mat 1024 3072) (bqkv : Fin 3072 → EReal) (wout : Mat 1024 1024) (bout : Fin 1024 → EReal) :
    Mat 8192 1024 :=
  lin (attn (lin x wqkv bqkv)) wout bout

end Cert.Attn

end
-- ==== Proof.BlockSpec.lean ====
/-
  One grid point of the attention region, in the specification's terms: 512 query rows of one batch against that
  batch's 2048 key and value rows, all sixteen heads at once.  `battn qb kb vb` is the 512 x 1024 block the point
  computes from its three input blocks, each 1024 columns wide (head h owns columns 64 h .. 64 h + 63), and
  `attn_block` says that the whole-array attention of Spec.lean, read at row r, is this block function of the
  blocks that row r's grid point reads: the query rows 512 (r / 512) + p in columns 0 .. 1023, and the batch's key
  and value rows in columns 1024 .. 2047 and 2048 .. 3071.
-/
import proofs.«109098_j72773925864105_2_alg».proof.Proof.Spec

noncomputable section

namespace Cert.Attn

open Idealize.ShloMosaic

/-- Column `e` of head `h` in a 1024-column block. -/
def hcol (h : Fin 16) (e : Fin 64) : Fin 1024 := ⟨64 * h.val + e.val, by have := h.isLt; have := e.isLt; omega⟩

def bscore (qb : Mat 512 1024) (kb : Mat 2048 1024) (p : Fin 512) (h : Fin 16) (j : Fin 2048) : EReal :=
  (∑ e : Fin 64, qb p (hcol h e) * kb j (hcol h e)) * scale

def bmax (qb : Mat 512 1024) (kb : Mat 2048 1024) (p : Fin 512) (h : Fin 16) : EReal :=
  (Finset.univ : Finset (Fin 2048)).fold max (Ideal.ofBits .f32 0xFF800000#32) (bscore qb kb p h)

def bnum (qb : Mat 512 1024) (kb : Mat 2048 1024) (p : Fin 512) (h : Fin 16) (j : Fin 2048) : EReal :=
  Ideal.exp (bscore qb kb p h j - bmax qb kb p h)

def bden (qb : Mat 512 1024) (kb : Mat 2048 1024) (p : Fin 512) (h : Fin 16) : EReal := ∑ j : Fin 2048, bnum qb kb p h j

/-- The block one grid point writes. -/
def battn (qb : Mat 512 1024) (kb vb : Mat 2048 1024) : Mat 512 1024 := fun p n =>
  ∑ j : Fin 2048, Ideal.div (bnum qb kb p (headOf n) j) (bden qb kb p (headOf n)) * vb j n

/-- The three blocks row `r`'s grid point reads out of the 8192 x 3072 array. -/
def qblk (q : Mat 8192 3072) (r : Fin 8192) : Mat 512 1024 :=
  fun p n => q ⟨512 * (r.val / 512) + p.val, by have := r.isLt; have := p.isLt; omega⟩ ⟨n.val, by have := n.isLt; omega⟩
def kblk (q : Mat 8192 3072) (r : Fin 8192) : Mat 2048 1024 :=
  fun j n => q (krow r j) ⟨1024 + n.val, by have := n.isLt; omega⟩
def vblk (q : Mat 8192 3072) (r : Fin 8192) : Mat 2048 1024 :=
  fun j n => q (krow r j) ⟨2048 + n.val, by have := n.isLt; omega⟩

theorem qblk_row (q : Mat 8192 3072) (r : Fin 8192) (n : Fin 1024) :
    qblk q r ⟨r.val % 512, Nat.mod_lt _ (by decide)⟩ n = q r ⟨n.val, by have := n.isLt; omega⟩ := by
  unfold qblk
  congr 1
  exact Fin.ext (by show 512 * (r.val / 512) + r.val % 512 = r.val; omega)

theorem bscore_eq (q : Mat 8192 3072) (r : Fin 8192) (h : Fin 16) (j : Fin 2048) :
    bscore (qblk q r) (kblk q r) ⟨r.val % 512, Nat.mod_lt _ (by decide)⟩ h j = score q r h j := by
  unfold bscore score
  refine congrArg (· * scale) (Finset.sum_congr rfl fun e _ => ?_)
  rw [qblk_row]
  rfl

/-- The whole-array attention at row `r` is the block function of the blocks row `r`'s grid point reads. -/
theorem attn_block (q : Mat 8192 3072) (r : Fin 8192) (c : Fin 1024) :
    attn q r c = battn (qblk q r) (kblk q r) (vblk q r) ⟨r.val % 512, Nat.mod_lt _ (by decide)⟩ c := by
  have hs : ∀ h, bscore (qblk q r) (kblk q r) ⟨r.val % 512, Nat.mod_lt _ (by decide)⟩ h = score q r h :=
    fun h => funext fun j => bscore_eq q r h j
  unfold attn battn den bden num bnum rowMax bmax
  simp only [hs]
  rfl

end Cert.Attn

end
-- ==== Proof.KI.Pay1.lean ====
/- The attention body's stored value read at an index: column n of row p of the 512 x 1024 tile is head n / 64's
   result at column n % 64, and every head's result is the same function of its 64-column slices of the three loaded
   blocks; so the stored tile is the block-level attention of the three blocks. -/
import proofs.«109098_j72773925864105_2_alg».proof.Proof.KI.Body1
import proofs.«109098_j72773925864105_2_alg».proof.Proof.KI.Head
import proofs.«109098_j72773925864105_2_alg».proof.Proof.BlockSpec

noncomputable section

namespace Cert.KernelIdeal.Hand

open Cert.KernelIdeal Cert.KernelIdeal.Facts₀
open Idealize.ShloMosaic Idealize.ShloMosaic.ValueIdx

section Pieces
variable (v0 : Vec Ideal S512x1024 .bf16) (v2 v4 : Vec Ideal S2048x1024 .bf16)

/-- Head h's result: the head function of columns 64 h .. 64 h + 63 of the three blocks. -/
def piece (h : ℕ) (hq : S512x1024.Slices ![0, 64 * h] S512x64) (hk : S2048x1024.Slices ![0, 64 * h] S2048x64) : FVec Ideal S512x64 .f32 :=
  head (extractStridedSlice S512x64 ![0, 64 * h] (Gen.k1_pay3 v0) hq)
    (extractStridedSlice S2048x64 ![0, 64 * h] (Gen.k1_pay4 v2) hk)
    (extractStridedSlice S2048x64 ![0, 64 * h] (Gen.k1_pay5 v4) hk)

/-! Each of the sixteen values the concatenation takes is its head's piece: the payload names cut the same chain of
    operations at other places. -/
theorem arg0_eq : Gen.k1_pay6 v0 v2 v4 = piece v0 v2 v4 0 slices_S512x1024_o0_0_S512x64 slices_S2048x1024_o0_0_S2048x64 := rfl
theorem arg1_eq : Gen.k1_pay7 v0 v2 v4 = piece v0 v2 v4 1 slices_S512x1024_o0_64_S512x64 slices_S2048x1024_o0_64_S2048x64 := rfl
theorem arg2_eq : Gen.k1_pay10 (Gen.k1_pay5 v4) (Gen.k1_pay8 v0) (Gen.k1_pay9 v2) = piece v0 v2 v4 2 slices_S512x1024_o0_128_S512x64 slices_S2048x1024_o0_128_S2048x64 := rfl
theorem arg3_eq : Gen.k1_pay11 (Gen.k1_pay3 v0) (Gen.k1_pay4 v2) (Gen.k1_pay5 v4) = piece v0 v2 v4 3 slices_S512x1024_o0_192_S512x64 slices_S2048x1024_o0_192_S2048x64 := rfl
theorem arg4_eq : Gen.k1_pay15 (Gen.k1_pay12 (Gen.k1_pay5 v4)) (Gen.k1_pay13 (Gen.k1_pay3 v0) (Gen.k1_pay4 v2)) (Gen.k1_pay14 (Gen.k1_pay3 v0) (Gen.k1_pay4 v2)) = piece v0 v2 v4 4 slices_S512x1024_o0_256_S512x64 slices_S2048x1024_o0_256_S2048x64 := rfl
theorem arg5_eq : Gen.k1_pay16 (Gen.k1_pay3 v0) (Gen.k1_pay4 v2) (Gen.k1_pay5 v4) = piece v0 v2 v4 5 slices_S512x1024_o0_320_S512x64 slices_S2048x1024_o0_320_S2048x64 := rfl
theorem arg6_eq : Gen.k1_pay17 (Gen.k1_pay3 v0) (Gen.k1_pay4 v2) (Gen.k1_pay5 v4) = piece v0 v2 v4 6 slices_S512x1024_o0_384_S512x64 slices_S2048x1024_o0_384_S2048x64 := rfl
theorem arg7_eq : Gen.k1_pay21 (Gen.k1_pay18 (Gen.k1_pay5 v4)) (Gen.k1_pay19 (Gen.k1_pay3 v0) (Gen.k1_pay4 v2)) (Gen.k1_pay20 (Gen.k1_pay3 v0) (Gen.k1_pay4 v2)) = piece v0 v2 v4 7 slices_S512x1024_o0_448_S512x64 slices_S2048x1024_o0_448_S2048x64 := rfl
theorem arg8_eq : Gen.k1_pay22 (Gen.k1_pay3 v0) (Gen.k1_pay4 v2) (Gen.k1_pay5 v4) = piece v0 v2 v4 8 slices_S512x1024_o0_512_S512x64 slices_S2048x1024_o0_512_S2048x64 := rfl
theorem arg9_eq : Gen.k1_pay23 (Gen.k1_pay3 v0) (Gen.k1_pay4 v2) (Gen.k1_pay5 v4) = piece v0 v2 v4 9 slices_S512x1024_o0_576_S512x64 slices_S2048x1024_o0_576_S2048x64 := rfl
theorem arg10_eq : Gen.k1_pay26 (Gen.k1_pay24 (Gen.k1_pay5 v4)) (Gen.k1_pay25 (Gen.k1_pay3 v0) (Gen.k1_pay4 v2)) (Scalar.ofBits .f32 0x3E000000#32) = piece v0 v2 v4 10 slices_S512x1024_o0_640_S512x64 slices_S2048x1024_o0_640_S2048x64 := rfl
theorem arg11_eq : Gen.k1_pay27 (Gen.k1_pay3 v0) (Gen.k1_pay4 v2) (Gen.k1_pay5 v4) = piece v0 v2 v4 11 slices_S512x1024_o0_704_S512x64 slices_S2048x1024_o0_704_S2048x64 := rfl
theorem arg12_eq : Gen.k1_pay28 (Gen.k1_pay3 v0) (Gen.k1_pay4 v2) (Gen.k1_pay5 v4) = piece v0 v2 v4 12 slices_S512x1024_o0_768_S512x64 slices_S2048x1024_o0_768_S2048x64 := rfl
theorem arg13_eq : Gen.k1_pay29 (Gen.k1_pay3 v0) (Gen.k1_pay4 v2) (Gen.k1_pay5 v4) = piece v0 v2 v4 13 slices_S512x1024_o0_832_S512x64 slices_S2048x1024_o0_832_S2048x64 := rfl
theorem arg14_eq : Gen.k1_pay30 (Gen.k1_pay3 v0) (Gen.k1_pay4 v2) (Gen.k1_pay5 v4) = piece v0 v2 v4 14 slices_S512x1024_o0_896_S512x64 slices_S2048x1024_o0_896_S2048x64 := rfl
theorem arg15_eq : Gen.k1_pay1 (Gen.k1_pay31 (Gen.k1_pay5 v4)) (Gen.k1_pay32 (Gen.k1_pay3 v0) (Gen.k1_pay4 v2)) (Gen.k1_pay33 (Gen.k1_pay3 v0) (Gen.k1_pay4 v2)) = piece v0 v2 v4 15 slices_S512x1024_o0_960_S512x64 slices_S2048x1024_o0_960_S2048x64 := rfl

/-- The three blocks as matrices of extended reals. -/
abbrev Qm : Cert.Attn.Mat 512 1024 := fun p n => v0 (ix2 p n)
abbrev Km : Cert.Attn.Mat 2048 1024 := fun j n => v2 (ix2 j n)
abbrev Vm : Cert.Attn.Mat 2048 1024 := fun j n => v4 (ix2 j n)

/-- Head h's query slice at (p, e) is the query block at column 64 h + e, -/
theorem sliceq_apply (h : Fin 16) (hq : S512x1024.Slices ![0, 64 * h.val] S512x64) (p : Fin 512) (e : Fin 64) :
    extractStridedSlice S512x64 ![0, 64 * h.val] (Gen.k1_pay3 v0) hq (ix2 p e) = v0 (ix2 p (Cert.Attn.hcol h e)) := by
  refine (slice2_axis1_apply (64 * h.val) (Gen.k1_pay3 v0) hq p e (Cert.Attn.hcol h e) rfl).trans ?_
  unfold Gen.k1_pay3
  rw [shapeCast_self]

/-- its key slice at (j, e) the key block there, -/
theorem slicek_apply (h : Fin 16) (hk : S2048x1024.Slices ![0, 64 * h.val] S2048x64) (j : Fin 2048) (e : Fin 64) :
    extractStridedSlice S2048x64 ![0, 64 * h.val] (Gen.k1_pay4 v2) hk (ix2 j e) = v2 (ix2 j (Cert.Attn.hcol h e)) := by
  refine (slice2_axis1_apply (64 * h.val) (Gen.k1_pay4 v2) hk j e (Cert.Attn.hcol h e) rfl).trans ?_
  unfold Gen.k1_pay4
  rw [shapeCast_self]

/-- and its value slice at (j, d) the value block there. -/
theorem slicev_apply (h : Fin 16) (hk : S2048x1024.Slices ![0, 64 * h.val] S2048x64) (j : Fin 2048) (d : Fin 64) :
    extractStridedSlice S2048x64 ![0, 64 * h.val] (Gen.k1_pay5 v4) hk (ix2 j d) = v4 (ix2 j (Cert.Attn.hcol h d)) := by
  refine (slice2_axis1_apply (64 * h.val) (Gen.k1_pay5 v4) hk j d (Cert.Attn.hcol h d) rfl).trans ?_
  unfold Gen.k1_pay5
  rw [shapeCast_self]

/-- The head function's scores of the slices are the block specification's scores of head h, -/
theorem hs_slices (h : Fin 16) (hq : S512x1024.Slices ![0, 64 * h.val] S512x64) (hk : S2048x1024.Slices ![0, 64 * h.val] S2048x64)
    (p : Fin 512) :
    hs (extractStridedSlice S512x64 ![0, 64 * h.val] (Gen.k1_pay3 v0) hq) (extractStridedSlice S2048x64 ![0, 64 * h.val] (Gen.k1_pay4 v2) hk) p
      = Cert.Attn.bscore (Qm v0) (Km v2) p h := by
  funext j
  unfold hs Cert.Attn.bscore Cert.Attn.scale
  refine congrArg (· * Ideal.ofBits .f32 0x3E000000#32) (Finset.sum_congr rfl fun e _ => ?_)
  rw [sliceq_apply, slicek_apply]

/-- and so are their row maxima. -/
theorem hm_slices (h : Fin 16) (hq : S512x1024.Slices ![0, 64 * h.val] S512x64) (hk : S2048x1024.Slices ![0, 64 * h.val] S2048x64)
    (p : Fin 512) :
    hm (extractStridedSlice S512x64 ![0, 64 * h.val] (Gen.k1_pay3 v0) hq) (extractStridedSlice S2048x64 ![0, 64 * h.val] (Gen.k1_pay4 v2) hk) p
      = Cert.Attn.bmax (Qm v0) (Km v2) p h := by
  unfold hm Cert.Attn.bmax
  rw [hs_slices]

/-- **Head h's piece at (p, d)** is the block-level attention at row p and column 64 h + d. -/
theorem piece_apply (h : Fin 16) (hq : S512x1024.Slices ![0, 64 * h.val] S512x64) (hk : S2048x1024.Slices ![0, 64 * h.val] S2048x64)
    (p : Fin 512) (d : Fin 64) :
    piece v0 v2 v4 h.val hq hk (ix2 p d)
      = ∑ j : Fin 2048, Ideal.div (Cert.Attn.bnum (Qm v0) (Km v2) p h j) (Cert.Attn.bden (Qm v0) (Km v2) p h) * v4 (ix2 j (Cert.Attn.hcol h d)) := by
  unfold piece
  rw [head_apply, hs_slices, hm_slices]
  unfold Cert.Attn.bden Cert.Attn.bnum
  exact Finset.sum_congr rfl fun j _ => by rw [slicev_apply]

/-- The sixteen pieces, by head. -/
def pieces : Fin 16 → FVec Ideal S512x64 .f32 := fun h => match h with
  | ⟨0, _⟩ => piece v0 v2 v4 0 slices_S512x1024_o0_0_S512x64 slices_S2048x1024_o0_0_S2048x64
  | ⟨1, _⟩ => piece v0 v2 v4 1 slices_S512x1024_o0_64_S512x64 slices_S2048x1024_o0_64_S2048x64
  | ⟨2, _⟩ => piece v0 v2 v4 2 slices_S512x1024_o0_128_S512x64 slices_S2048x1024_o0_128_S2048x64
  | ⟨3, _⟩ => piece v0 v2 v4 3 slices_S512x1024_o0_192_S512x64 slices_S2048x1024_o0_192_S2048x64
  | ⟨4, _⟩ => piece v0 v2 v4 4 slices_S512x1024_o0_256_S512x64 slices_S2048x1024_o0_256_S2048x64
  | ⟨5, _⟩ => piece v0 v2 v4 5 slices_S512x1024_o0_320_S512x64 slices_S2048x1024_o0_320_S2048x64
  | ⟨6, _⟩ => piece v0 v2 v4 6 slices_S512x1024_o0_384_S512x64 slices_S2048x1024_o0_384_S2048x64
  | ⟨7, _⟩ => piece v0 v2 v4 7 slices_S512x1024_o0_448_S512x64 slices_S2048x1024_o0_448_S2048x64
  | ⟨8, _⟩ => piece v0 v2 v4 8 slices_S512x1024_o0_512_S512x64 slices_S2048x1024_o0_512_S2048x64
  | ⟨9, _⟩ => piece v0 v2 v4 9 slices_S512x1024_o0_576_S512x64 slices_S2048x1024_o0_576_S2048x64
  | ⟨10, _⟩ => piece v0 v2 v4 10 slices_S512x1024_o0_640_S512x64 slices_S2048x1024_o0_640_S2048x64
  | ⟨11, _⟩ => piece v0 v2 v4 11 slices_S512x1024_o0_704_S512x64 slices_S2048x1024_o0_704_S2048x64
  | ⟨12, _⟩ => piece v0 v2 v4 12 slices_S512x1024_o0_768_S512x64 slices_S2048x1024_o0_768_S2048x64
  | ⟨13, _⟩ => piece v0 v2 v4 13 slices_S512x1024_o0_832_S512x64 slices_S2048x1024_o0_832_S2048x64
  | ⟨14, _⟩ => piece v0 v2 v4 14 slices_S512x1024_o0_896_S512x64 slices_S2048x1024_o0_896_S2048x64
  | ⟨15, _⟩ => piece v0 v2 v4 15 slices_S512x1024_o0_960_S512x64 slices_S2048x1024_o0_960_S2048x64
  | ⟨_ + 16, hlt⟩ => absurd hlt (Nat.not_lt.2 (Nat.le_add_left _ _))

theorem pieces_apply (h : Fin 16) (p : Fin 512) (d : Fin 64) :
    pieces v0 v2 v4 h (ix2 p d)
      = ∑ j : Fin 2048, Ideal.div (Cert.Attn.bnum (Qm v0) (Km v2) p h j) (Cert.Attn.bden (Qm v0) (Km v2) p h) * v4 (ix2 j (Cert.Attn.hcol h d)) := by
  match h with
  | ⟨0, _⟩ => exact piece_apply v0 v2 v4 ⟨0, by decide⟩ slices_S512x1024_o0_0_S512x64 slices_S2048x1024_o0_0_S2048x64 p d
  | ⟨1, _⟩ => exact piece_apply v0 v2 v4 ⟨1, by decide⟩ slices_S512x1024_o0_64_S512x64 slices_S2048x1024_o0_64_S2048x64 p d
  | ⟨2, _⟩ => exact piece_apply v0 v2 v4 ⟨2, by decide⟩ slices_S512x1024_o0_128_S512x64 slices_S2048x1024_o0_128_S2048x64 p d
  | ⟨3, _⟩ => exact piece_apply v0 v2 v4 ⟨3, by decide⟩ slices_S512x1024_o0_192_S512x64 slices_S2048x1024_o0_192_S2048x64 p d
  | ⟨4, _⟩ => exact piece_apply v0 v2 v4 ⟨4, by decide⟩ slices_S512x1024_o0_256_S512x64 slices_S2048x1024_o0_256_S2048x64 p d
  | ⟨5, _⟩ => exact piece_apply v0 v2 v4 ⟨5, by decide⟩ slices_S512x1024_o0_320_S512x64 slices_S2048x1024_o0_320_S2048x64 p d
  | ⟨6, _⟩ => exact piece_apply v0 v2 v4 ⟨6, by decide⟩ slices_S512x1024_o0_384_S512x64 slices_S2048x1024_o0_384_S2048x64 p d
  | ⟨7, _⟩ => exact piece_apply v0 v2 v4 ⟨7, by decide⟩ slices_S512x1024_o0_448_S512x64 slices_S2048x1024_o0_448_S2048x64 p d
  | ⟨8, _⟩ => exact piece_apply v0 v2 v4 ⟨8, by decide⟩ slices_S512x1024_o0_512_S512x64 slices_S2048x1024_o0_512_S2048x64 p d
  | ⟨9, _⟩ => exact piece_apply v0 v2 v4 ⟨9, by decide⟩ slices_S512x1024_o0_576_S512x64 slices_S2048x1024_o0_576_S2048x64 p d
  | ⟨10, _⟩ => exact piece_apply v0 v2 v4 ⟨10, by decide⟩ slices_S512x1024_o0_640_S512x64 slices_S2048x1024_o0_640_S2048x64 p d
  | ⟨11, _⟩ => exact piece_apply v0 v2 v4 ⟨11, by decide⟩ slices_S512x1024_o0_704_S512x64 slices_S2048x1024_o0_704_S2048x64 p d
  | ⟨12, _⟩ => exact piece_apply v0 v2 v4 ⟨12, by decide⟩ slices_S512x1024_o0_768_S512x64 slices_S2048x1024_o0_768_S2048x64 p d
  | ⟨13, _⟩ => exact piece_apply v0 v2 v4 ⟨13, by decide⟩ slices_S512x1024_o0_832_S512x64 slices_S2048x1024_o0_832_S2048x64 p d
  | ⟨14, _⟩ => exact piece_apply v0 v2 v4 ⟨14, by decide⟩ slices_S512x1024_o0_896_S512x64 slices_S2048x1024_o0_896_S2048x64 p d
  | ⟨15, _⟩ => exact piece_apply v0 v2 v4 ⟨15, by decide⟩ slices_S512x1024_o0_960_S512x64 slices_S2048x1024_o0_960_S2048x64 p d
  | ⟨_ + 16, hlt⟩ => exact absurd hlt (Nat.not_lt.2 (Nat.le_add_left _ _))

/-- The stored value is the concatenation of the sixteen pieces (the format change apart). -/
theorem pay1_3_eq_concat :
    pay1_3 (F := Ideal) v0 v2 v4
      = truncf .bf16 (concatenate S512x1024 1 (List.ofFn fun h : Fin 16 => (⟨S512x64, pieces v0 v2 v4 h⟩ : (s : Shape) × (s.Idx → Ideal .f32)))
          concatenates_S512x64_S512x64_S512x64_S512x64_S512x64_S512x64_S512x64_S512x64_S512x64_S512x64_S512x64_S512x64_S512x64_S512x64_S512x64_S512x64_S512x1024_d1) bitsLt_bf16_f32 := rfl

end Pieces

/-- **The attention body's stored value at (p, n)** is the block-level attention of the three loaded blocks. -/
theorem pay1_3_apply (v0 : Vec Ideal S512x1024 .bf16) (v2 v4 : Vec Ideal S2048x1024 .bf16) (p : Fin 512) (n : Fin 1024) :
    pay1_3 (F := Ideal) v0 v2 v4 (ix2 p n)
      = Cert.Attn.battn (fun p n => v0 (ix2 p n)) (fun j n => v2 (ix2 j n)) (fun j n => v4 (ix2 j n)) p n := by
  rw [pay1_3_eq_concat, truncf_apply]
  have hd : n.val % 64 < 64 := Nat.mod_lt _ (by decide)
  refine (concatenate_ofFn_apply (t := S512x1024) (s₁ := S512x64) 1 (pieces v0 v2 v4) _ rfl 64 rfl (ix2 p n)
    (Cert.Attn.headOf n) rfl (ix2 p ⟨n.val % 64, hd⟩) rfl (fun b hb => ?_)).trans ?_
  · match b with
    | ⟨0, _⟩ => rfl
    | ⟨1, _⟩ => exact absurd rfl hb
  rw [pieces_apply]
  unfold Cert.Attn.battn
  have hn : Cert.Attn.hcol (Cert.Attn.headOf n) ⟨n.val % 64, hd⟩ = n :=
    Fin.ext (by show 64 * (n.val / 64) + n.val % 64 = n.val; omega)
  rw [hn]

end Cert.KernelIdeal.Hand

end
-- ==== Proof.KI.Val0.lean ====
/- The value of custom_call 0 on the extended reals: every element of its output array after the region is the
   row-by-column sum of the two operand arrays plus the bias of the column. -/
import proofs.«109098_j72773925864105_2_alg».proof.Proof.KI.Body0
import proofs.«109098_j72773925864105_2_alg».proof.Proof.Spec
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The payload at an index -/

/-- The dot's operand indices, axis by axis: the left operand is read at the output's row and the contraction
    coordinate, the right one at the contraction coordinate and the output's column. -/
theorem dot0_lhs_0 (i : S512x3072.Idx) (k : dot_S512x1024_S1024x3072_S512x3072_1_0_0_1_n_n.contr.Idx) : (dot_S512x1024_S1024x3072_S512x3072_1_0_0_1_n_n.lhsIdx i k 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem dot0_lhs_1 (i : S512x3072.Idx) (k : dot_S512x1024_S1024x3072_S512x3072_1_0_0_1_n_n.contr.Idx) : (dot_S512x1024_S1024x3072_S512x3072_1_0_0_1_n_n.lhsIdx i k 1).val = (k ⟨0, by decide⟩).val :=
  dot_S512x1024_S1024x3072_S512x3072_1_0_0_1_n_n.lhsIdx_val_of_single rfl i k
theorem dot0_rhs_0 (i : S512x3072.Idx) (k : dot_S512x1024_S1024x3072_S512x3072_1_0_0_1_n_n.contr.Idx) : (dot_S512x1024_S1024x3072_S512x3072_1_0_0_1_n_n.rhsIdx i k 0).val = (k ⟨0, by decide⟩).val :=
  dot_S512x1024_S1024x3072_S512x3072_1_0_0_1_n_n.rhsIdx_val_of_single rfl i k
theorem dot0_rhs_1 (i : S512x3072.Idx) (k : dot_S512x1024_S1024x3072_S512x3072_1_0_0_1_n_n.contr.Idx) : (dot_S512x1024_S1024x3072_S512x3072_1_0_0_1_n_n.rhsIdx i k 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The body's payload at `(p, q)`: the format changes are the identity on the extended reals, the product into the
    zero splat is the sum over the contraction coordinate, and the bias row is read at the column. -/
theorem pay0_apply (x0 : Vec Ideal S512x1024 .f32) (x1 : Vec Ideal S1024x3072 .f32) (x2 : Vec Ideal S1x3072 .f32)
    (p : Fin 512) (q : Fin 3072) :
    (k0_pay1 (F := Ideal) x0 x1 x2 : S512x3072.Idx → EReal) (ix2 p q)
      = (∑ k : Fin 1024, (x0 (ix2 p k) : EReal) * (x1 (ix2 k q) : EReal)) + (x2 (ix2 0 q) : EReal) := by
  unfold k0_pay1
  simp only [shapeCast_self, matmul]
  rw [truncf_apply, addf_apply, Ideal.matmul_constant_zero_apply,
    broadcastTo_apply x2 broadcasts_S1x3072_S512x3072 (ix2 p q) (ix2 0 q) (fun a => by
      match a with
      | ⟨0, _⟩ => rfl
      | ⟨1, _⟩ => rfl),
    ← Equiv.sum_comp (contrEquiv1 dot_S512x1024_S1024x3072_S512x3072_1_0_0_1_n_n 1024 rfl rfl).symm]
  congr 1
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p q) ((contrEquiv1 dot_S512x1024_S1024x3072_S512x3072_1_0_0_1_n_n 1024 rfl rfl).symm k) = ix2 p k := funext fun a => Fin.ext (by
    match a with
    | ⟨0, _⟩ => exact dot0_lhs_0 _ _
    | ⟨1, _⟩ => exact (dot0_lhs_1 _ _).trans hk)
  have er : dot_S512x1024_S1024x3072_S512x3072_1_0_0_1_n_n.rhsIdx (ix2 p q) ((contrEquiv1 dot_S512x1024_S1024x3072_S512x3072_1_0_0_1_n_n 1024 rfl rfl).symm k) = ix2 k q := funext fun a => Fin.ext (by
    match a with
    | ⟨0, _⟩ => exact (dot0_rhs_0 _ _).trans hk
    | ⟨1, _⟩ => exact dot0_rhs_1 _ _)
  rw [el, er]
  rfl

/-! ## The blocks, read off the arrays -/

theorem hz0 : (![0, 0] : Fin 2 → Nat) = fun _ => 0 := funext fun a => by fin_cases a <;> rfl

/-- The printed index maps, decided over the grid: the row operand's window and the output's are at block row `t`,
    the matrix's and the bias row's windows stay at the one block they have. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Window 0's block at point `t` is rows `512 t … 512 t + 511` of its array. -/
theorem iblk0_0_apply (V : (c : Dev nD) → (b : Ref sig .tc) → Buf (Elt Ideal) ((c : Thread nD τ).loc b)) (c : Dev nD)
    (t : Fin cfg0.N) (x : S512x1024.Idx) (i : S8192x1024.Idx)
    (h0 : (i 0).val = 512 * t.val + (x 0).val) (h1 : (i 1).val = (x 1).val) :
    (iblk0 V c 0 t : S512x1024.Idx → EReal) x = (V c main_v0 : S8192x1024.Idx → EReal) i := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 512 + 1 * (x 0).val = (i 0).val; rw [e0, h0]; omega
  | ⟨1, _⟩ => show win0_0.index t (1 : Fin 2) * 1024 + 1 * (x 1).val = (i 1).val; rw [e1, h1]; omega

/-- Window 1's block at every point is its whole array. -/
theorem iblk0_1_apply (V : (c : Dev nD) → (b : Ref sig .tc) → Buf (Elt Ideal) ((c : Thread nD τ).loc b)) (c : Dev nD)
    (t : Fin cfg0.N) (x : S1024x3072.Idx) (i : S1024x3072.Idx)
    (h0 : (i 0).val = (x 0).val) (h1 : (i 1).val = (x 1).val) :
    (iblk0 V c 1 t : S1024x3072.Idx → EReal) x = (V c main_arg1 : S1024x3072.Idx → EReal) i := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t (0 : Fin 2) * 1024 + 1 * (x 0).val = (i 0).val; rw [e0, h0]; omega
  | ⟨1, _⟩ => show win0_1.index t (1 : Fin 2) * 3072 + 1 * (x 1).val = (i 1).val; rw [e1, h1]; omega

/-- Window 2's block at every point is its whole array, the bias row. -/
theorem iblk0_2_apply (V : (c : Dev nD) → (b : Ref sig .tc) → Buf (Elt Ideal) ((c : Thread nD τ).loc b)) (c : Dev nD)
    (t : Fin cfg0.N) (x : S1x3072.Idx) (i : S1x3072.Idx)
    (h0 : (i 0).val = (x 0).val) (h1 : (i 1).val = (x 1).val) :
    (iblk0 V c 2 t : S1x3072.Idx → EReal) x = (V c main_v1 : S1x3072.Idx → EReal) i := by
  obtain ⟨-, -, -, -, e0, e1, -⟩ := idx_facts0 t
  unfold iblk0
  rw [View.read_apply]
  show V c main_v1 _ = V c main_v1 _
  congr 1
  funext a
  apply Fin.ext
  match a with
  | ⟨0, _⟩ => show win0_2.index t (0 : Fin 2) * 1 + 1 * (x 0).val = (i 0).val; rw [e0, h0]; omega
  | ⟨1, _⟩ => show win0_2.index t (1 : Fin 2) * 3072 + 1 * (x 1).val = (i 1).val; rw [e1, h1]; omega

/-! ## Closed form: the output array as one function of the operand arrays, index by index -/

/-- The payload at any index of the block, by its coordinates. -/
theorem pay0_at (x0 : Vec Ideal S512x1024 .f32) (x1 : Vec Ideal S1024x3072 .f32) (x2 : Vec Ideal S1x3072 .f32) (j : S512x3072.Idx) :
    (k0_pay1 (F := Ideal) x0 x1 x2 : S512x3072.Idx → EReal) j
      = (∑ k : Fin 1024, (x0 (ix2 (⟨(j 0).val, (j 0).isLt⟩ : Fin 512) k) : EReal) * (x1 (ix2 k (⟨(j 1).val, (j 1).isLt⟩ : Fin 3072)) : EReal))
        + (x2 (ix2 0 (⟨(j 1).val, (j 1).isLt⟩ : Fin 3072)) : EReal) := by
  obtain ⟨p, q, rfl⟩ : ∃ (p : Fin 512) (q : Fin 3072), j = ix2 p q := ⟨j 0, j 1, eq_ix2 j⟩
  exact pay0_apply x0 x1 x2 p q

/-- What the output array ends holding: at row `r` and column `n` the sum over `k` of the row operand at `(r, k)`
    times the matrix at `(k, n)`, plus the bias row at `n`. -/
def G0 (a : S8192x1024.Idx → EReal) (w : S1024x3072.Idx → EReal) (b : S1x3072.Idx → EReal) : S8192x3072.Idx → EReal :=
  fun i => (∑ k : Fin 1024, a (ix2 (⟨(i 0).val, (i 0).isLt⟩ : Fin 8192) k) * w (ix2 k (⟨(i 1).val, (i 1).isLt⟩ : Fin 3072)))
    + b (ix2 0 (⟨(i 1).val, (i 1).isLt⟩ : Fin 3072))

/-- What point `t` writes back is block `t` of `G0` of the operand arrays as the region finds them. -/
theorem flushed0_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (G0 (V c main_v0) (V c main_arg1) (V c main_v1)) := by
  show (cfg0.win 3).cut (grid0.coords t) ((dat0 (F := Ideal) V c).after 3 t) = _
  rw [after0_3]
  unfold out0_3
  rw [View.canon_unit_zero hz0]
  simp only [View.ld_unit_zero (S := S512x1024) hz0, View.ld_unit_zero (S := S1024x3072) hz0, View.ld_unit_zero (S := S1x3072) hz0]
  obtain ⟨-, -, -, -, -, -, e0, e1⟩ := idx_facts0 t
  funext j
  show (k0_pay1 (F := Ideal) (iblk0 V c 0 t) (iblk0 V c 1 t) (iblk0 V c 2 t) : S512x3072.Idx → EReal) j
    = G0 (V c main_v0) (V c main_arg1) (V c main_v1) (((cfg0.win 3).blk t).view.emb j)
  refine (pay0_at (iblk0 V c 0 t) (iblk0 V c 1 t) (iblk0 V c 2 t) j).trans ?_
  have hj0 : (j 0).val < 512 := (j 0).isLt
  have hj1 : (j 1).val < 3072 := (j 1).isLt
  have r0 : ((((cfg0.win 3).blk t).view.emb j) 0).val = 512 * t.val + (j 0).val := by
    show win0_3.index t (0 : Fin 2) * 512 + 1 * (j 0).val = _; rw [e0]; omega
  have r1 : ((((cfg0.win 3).blk t).view.emb j) 1).val = (j 1).val := by
    show win0_3.index t (1 : Fin 2) * 3072 + 1 * (j 1).val = _; rw [e1]; omega
  unfold G0
  refine congrArg₂ (· + ·) (Finset.sum_congr rfl fun k _ => congrArg₂ (· * ·) ?_ ?_) ?_
  · exact iblk0_0_apply V c t _ _ r0 rfl
  · exact iblk0_1_apply V c t _ _ rfl r1
  · exact iblk0_2_apply V c t _ _ rfl r1

/-- An index of the array is in point `t`'s block iff each coordinate is in the block's range on its axis. -/
theorem mem_blk0 (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v2).slice (win0_3.rect t)).set ↔ _
  rw [View.set_slice_whole, Rect.mem_set_unit]
  exact Iff.rfl

/-- Every index of the array is in some point's block: row `r` is covered by point `r / 512`. -/
theorem cover0 (i : S8192x3072.Idx) : ∃ t : Fin cfg0.N, (cfg0.win 3).flush t = true ∧ i ∈ ((cfg0.win 3).blk t).view.set := by
  have hi0 : (i 0).val < 8192 := (i 0).isLt
  have hi1 : (i 1).val < 3072 := (i 1).isLt
  obtain ⟨t, ht⟩ : ∃ t : Fin cfg0.N, t.val = (i 0).val / 512 :=
    ⟨⟨(i 0).val / 512, by show _ < grid0.N; rw [N_0]; omega⟩, rfl⟩
  obtain ⟨-, -, -, -, -, -, e0, e1⟩ := idx_facts0 t
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 3072 ≤ (i 1).val ∧ (i 1).val < win0_3.index t (1 : Fin 2) * 3072 + 3072; rw [e1]; omega

/-- The output array after the region is `G0` of the operand arrays. -/
theorem arr0_eq (V : (c : Dev nD) → (b : Ref sig .tc) → Buf (Elt Ideal) ((c : Thread nD τ).loc b)) (c : Dev nD) :
    (dat0 (F := Ideal) V c).arrAt 3 cfg0.N = G0 (V c main_v0) (V c main_arg1) (V c main_v1) :=
  (dat0 (F := Ideal) V c).arrAt_eq_of_cover 3 (G0 (V c main_v0) (V c main_arg1) (V c main_v1)) (fun t _ => flushed0_eq V c t) cover0

/-- Every element of the result is the row-by-column sum plus the bias of the column. -/
theorem final0 (V : (c : Dev nD) → (b : Ref sig .tc) → Buf (Elt Ideal) ((c : Thread nD τ).loc b)) (c : Dev nD)
    (r : Fin 8192) (n : Fin 3072) :
    ((dat0 (F := Ideal) V c).arrAt 3 cfg0.N : S8192x3072.Idx → EReal) (ix2 r n)
      = Cert.Attn.lin (fun r k => (V c main_v0 : S8192x1024.Idx → EReal) (ix2 r k)) (fun k n => (V c main_arg1 : S1024x3072.Idx → EReal) (ix2 k n))
          (fun n => (V c main_v1 : S1x3072.Idx → EReal) (ix2 0 n)) r n := by
  rw [arr0_eq V c]
  rfl

end Cert.KernelIdeal.Hand

end
-- ==== Proof.KI.Val1.lean ====
/- The value of the attention region on the extended reals: every element of its output array after the region is
   the softmax attention of the specification, read off the array the region finds, given that the body's payload
   at an index is the block function of the three loaded blocks. -/
import proofs.«109098_j72773925864105_2_alg».proof.Proof.KI.Body1
import proofs.«109098_j72773925864105_2_alg».proof.Proof.BlockSpec
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The blocks, read off the array -/

theorem hz1 : (![0, 0] : Fin 2 → Nat) = fun _ => 0 := funext fun a => by fin_cases a <;> rfl

/-- The printed index maps, decided over the grid of 4 batches by 4 query tiles: at point `t` the query window and
    the output window are at block row `t`, the key and value windows at the batch's block row `t / 4`, in the
    second and the third block column. -/
theorem idx_facts1 : ∀ t : Fin cfg1.N, win1_0.index t (0 : Fin 2) = t.val ∧ win1_0.index t (1 : Fin 2) = 0
    ∧ win1_1.index t (0 : Fin 2) = t.val / 4 ∧ win1_1.index t (1 : Fin 2) = 1
    ∧ win1_2.index t (0 : Fin 2) = t.val / 4 ∧ win1_2.index t (1 : Fin 2) = 2
    ∧ win1_3.index t (0 : Fin 2) = t.val ∧ win1_3.index t (1 : Fin 2) = 0 :=
  (by decide +kernel : ∀ t : Fin grid1.N, _)

/-- The query window's block at point `t` is rows `512 t … 512 t + 511` of the array, in its first 1024 columns. -/
theorem iblk1_0_apply (V : (c : Dev nD) → (b : Ref sig .tc) → Buf (Elt Ideal) ((c : Thread nD τ).loc b)) (c : Dev nD)
    (t : Fin cfg1.N) (x : S512x1024.Idx) (i : S8192x3072.Idx)
    (h0 : (i 0).val = 512 * t.val + (x 0).val) (h1 : (i 1).val = (x 1).val) :
    (iblk1 V c 0 t : S512x1024.Idx → EReal) x = (V c main_v2 : S8192x3072.Idx → EReal) i := by
  obtain ⟨e0, e1, -⟩ := idx_facts1 t
  unfold iblk1
  rw [View.read_apply]
  show V c main_v2 _ = V c main_v2 _
  congr 1
  funext a
  apply Fin.ext
  match a with
  | ⟨0, _⟩ => show win1_0.index t (0 : Fin 2) * 512 + 1 * (x 0).val = (i 0).val; rw [e0, h0]; omega
  | ⟨1, _⟩ => show win1_0.index t (1 : Fin 2) * 1024 + 1 * (x 1).val = (i 1).val; rw [e1, h1]; omega

/-- The key window's block at point `t` is the batch's 2048 rows, in columns `1024 … 2047`. -/
theorem iblk1_1_apply (V : (c : Dev nD) → (b : Ref sig .tc) → Buf (Elt Ideal) ((c : Thread nD τ).loc b)) (c : Dev nD)
    (t : Fin cfg1.N) (x : S2048x1024.Idx) (i : S8192x3072.Idx)
    (h0 : (i 0).val = 2048 * (t.val / 4) + (x 0).val) (h1 : (i 1).val = 1024 + (x 1).val) :
    (iblk1 V c 1 t : S2048x1024.Idx → EReal) x = (V c main_v2 : S8192x3072.Idx → EReal) i := by
  obtain ⟨-, -, e0, e1, -⟩ := idx_facts1 t
  unfold iblk1
  rw [View.read_apply]
  show V c main_v2 _ = V c main_v2 _
  congr 1
  funext a
  apply Fin.ext
  match a with
  | ⟨0, _⟩ => show win1_1.index t (0 : Fin 2) * 2048 + 1 * (x 0).val = (i 0).val; rw [e0, h0]; omega
  | ⟨1, _⟩ => show win1_1.index t (1 : Fin 2) * 1024 + 1 * (x 1).val = (i 1).val; rw [e1, h1]; omega

/-- The value window's block at point `t` is the batch's 2048 rows, in columns `2048 … 3071`. -/
theorem iblk1_2_apply (V : (c : Dev nD) → (b : Ref sig .tc) → Buf (Elt Ideal) ((c : Thread nD τ).loc b)) (c : Dev nD)
    (t : Fin cfg1.N) (x : S2048x1024.Idx) (i : S8192x3072.Idx)
    (h0 : (i 0).val = 2048 * (t.val / 4) + (x 0).val) (h1 : (i 1).val = 2048 + (x 1).val) :
    (iblk1 V c 2 t : S2048x1024.Idx → EReal) x = (V c main_v2 : S8192x3072.Idx → EReal) i := by
  obtain ⟨-, -, -, -, e0, e1, -⟩ := idx_facts1 t
  unfold iblk1
  rw [View.read_apply]
  show V c main_v2 _ = V c main_v2 _
  congr 1
  funext a
  apply Fin.ext
  match a with
  | ⟨0, _⟩ => show win1_2.index t (0 : Fin 2) * 2048 + 1 * (x 0).val = (i 0).val; rw [e0, h0]; omega
  | ⟨1, _⟩ => show win1_2.index t (1 : Fin 2) * 1024 + 1 * (x 1).val = (i 1).val; rw [e1, h1]; omega

/-! ## Closed form: the output array as one function of the array the region reads, index by index -/

/-- The payload at any index of the block, by its coordinates. -/
theorem pay1_at (hpay : ∀ (v0 : Vec Ideal S512x1024 .bf16) (v2 v4 : Vec Ideal S2048x1024 .bf16) (p : Fin 512) (n : Fin 1024),
      (pay1_3 (F := Ideal) v0 v2 v4 : S512x1024.Idx → EReal) (ix2 p n)
        = Cert.Attn.battn (fun p n => (v0 (ix2 p n) : EReal)) (fun j n => (v2 (ix2 j n) : EReal)) (fun j n => (v4 (ix2 j n) : EReal)) p n)
    (v0 : Vec Ideal S512x1024 .bf16) (v2 v4 : Vec Ideal S2048x1024 .bf16) (j : S512x1024.Idx) :
    (pay1_3 (F := Ideal) v0 v2 v4 : S512x1024.Idx → EReal) j
      = Cert.Attn.battn (fun p n => (v0 (ix2 p n) : EReal)) (fun j n => (v2 (ix2 j n) : EReal)) (fun j n => (v4 (ix2 j n) : EReal))
          (⟨(j 0).val, (j 0).isLt⟩ : Fin 512) (⟨(j 1).val, (j 1).isLt⟩ : Fin 1024) := by
  obtain ⟨p, q, rfl⟩ : ∃ (p : Fin 512) (q : Fin 1024), j = ix2 p q := ⟨j 0, j 1, eq_ix2 j⟩
  exact hpay v0 v2 v4 p q

/-- What the output array ends holding: the specification's attention of the array the region reads, at the row and
    the column. -/
def G1 (a : S8192x3072.Idx → EReal) : S8192x1024.Idx → EReal :=
  fun i => Cert.Attn.attn (fun r k => a (ix2 r k)) (⟨(i 0).val, (i 0).isLt⟩ : Fin 8192) (⟨(i 1).val, (i 1).isLt⟩ : Fin 1024)

/-- What point `t` writes back is block `t` of `G1` of the array as the region finds it: the three loaded blocks are
    the query, key and value blocks of the rows' grid point, and the block function of those is the attention. -/
theorem flushed1_eq (hpay : ∀ (v0 : Vec Ideal S512x1024 .bf16) (v2 v4 : Vec Ideal S2048x1024 .bf16) (p : Fin 512) (n : Fin 1024),
      (pay1_3 (F := Ideal) v0 v2 v4 : S512x1024.Idx → EReal) (ix2 p n)
        = Cert.Attn.battn (fun p n => (v0 (ix2 p n) : EReal)) (fun j n => (v2 (ix2 j n) : EReal)) (fun j n => (v4 (ix2 j n) : EReal)) p n)
    (V : (c : Dev nD) → (b : Ref sig .tc) → Buf (Elt Ideal) ((c : Thread nD τ).loc b)) (c : Dev nD) (t : Fin cfg1.N) :
    (dat1 (F := Ideal) V c).flushed 3 t = ((cfg1.win 3).blk t).view.read (Elt Ideal) (G1 (V c main_v2)) := by
  show (cfg1.win 3).cut (grid1.coords t) ((dat1 (F := Ideal) V c).after 3 t) = _
  rw [after1_3]
  unfold out1_3
  rw [View.canon_unit_zero hz1]
  simp only [View.ld_unit_zero (S := S512x1024) hz1, View.ld_unit_zero (S := S2048x1024) hz1]
  obtain ⟨-, -, -, -, -, -, e0, e1⟩ := idx_facts1 t
  funext j
  show (pay1_3 (F := Ideal) (iblk1 V c 0 t) (iblk1 V c 1 t) (iblk1 V c 2 t) : S512x1024.Idx → EReal) j
    = G1 (V c main_v2) (((cfg1.win 3).blk t).view.emb j)
  have hj0 : (j 0).val < 512 := (j 0).isLt
  have hj1 : (j 1).val < 1024 := (j 1).isLt
  have r0 : ((((cfg1.win 3).blk t).view.emb j) 0).val = 512 * t.val + (j 0).val := by
    show win1_3.index t (0 : Fin 2) * 512 + 1 * (j 0).val = _; rw [e0]; omega
  have r1 : ((((cfg1.win 3).blk t).view.emb j) 1).val = (j 1).val := by
    show win1_3.index t (1 : Fin 2) * 1024 + 1 * (j 1).val = _; rw [e1]; omega
  unfold G1
  refine (pay1_at hpay (iblk1 V c 0 t) (iblk1 V c 1 t) (iblk1 V c 2 t) j).trans (Eq.trans ?_ (Cert.Attn.attn_block _ _ _).symm)
  have hq : (fun (p : Fin 512) (n : Fin 1024) => ((iblk1 V c 0 t : S512x1024.Idx → EReal) (ix2 p n) : EReal))
      = Cert.Attn.qblk (fun r k => (V c main_v2 : S8192x3072.Idx → EReal) (ix2 r k))
          (⟨((((cfg1.win 3).blk t).view.emb j) 0).val, ((((cfg1.win 3).blk t).view.emb j) 0).isLt⟩ : Fin 8192) :=
    funext fun p => funext fun n => by
      unfold Cert.Attn.qblk
      have hp : p.val < 512 := p.isLt
      refine iblk1_0_apply V c t _ _ ?_ ?_
      · show 512 * (((((cfg1.win 3).blk t).view.emb j) 0).val / 512) + p.val = 512 * t.val + p.val
        rw [r0]; omega
      · rfl
  have hk : (fun (i : Fin 2048) (n : Fin 1024) => ((iblk1 V c 1 t : S2048x1024.Idx → EReal) (ix2 i n) : EReal))
      = Cert.Attn.kblk (fun r k => (V c main_v2 : S8192x3072.Idx → EReal) (ix2 r k))
          (⟨((((cfg1.win 3).blk t).view.emb j) 0).val, ((((cfg1.win 3).blk t).view.emb j) 0).isLt⟩ : Fin 8192) :=
    funext fun i => funext fun n => by
      unfold Cert.Attn.kblk Cert.Attn.krow
      have hi : i.val < 2048 := i.isLt
      refine iblk1_1_apply V c t _ _ ?_ ?_
      · show 2048 * (((((cfg1.win 3).blk t).view.emb j) 0).val / 2048) + i.val = 2048 * (t.val / 4) + i.val
        rw [r0]; omega
      · rfl
  have hv : (fun (i : Fin 2048) (n : Fin 1024) => ((iblk1 V c 2 t : S2048x1024.Idx → EReal) (ix2 i n) : EReal))
      = Cert.Attn.vblk (fun r k => (V c main_v2 : S8192x3072.Idx → EReal) (ix2 r k))
          (⟨((((cfg1.win 3).blk t).view.emb j) 0).val, ((((cfg1.win 3).blk t).view.emb j) 0).isLt⟩ : Fin 8192) :=
    funext fun i => funext fun n => by
      unfold Cert.Attn.vblk Cert.Attn.krow
      have hi : i.val < 2048 := i.isLt
      refine iblk1_2_apply V c t _ _ ?_ ?_
      · show 2048 * (((((cfg1.win 3).blk t).view.emb j) 0).val / 2048) + i.val = 2048 * (t.val / 4) + i.val
        rw [r0]; omega
      · rfl
  have hrow : (⟨(j 0).val, (j 0).isLt⟩ : Fin 512)
      = ⟨((((cfg1.win 3).blk t).view.emb j) 0).val % 512, Nat.mod_lt _ (by decide)⟩ :=
    Fin.ext (by show (j 0).val = ((((cfg1.win 3).blk t).view.emb j) 0).val % 512; rw [r0]; omega)
  have hcol : (⟨(j 1).val, (j 1).isLt⟩ : Fin 1024)
      = ⟨((((cfg1.win 3).blk t).view.emb j) 1).val, ((((cfg1.win 3).blk t).view.emb j) 1).isLt⟩ :=
    Fin.ext r1.symm
  exact congr (congr (congr (congr (congrArg Cert.Attn.battn hq) hk) hv) hrow) hcol

/-- An index of the array is in point `t`'s block iff each coordinate is in the block's range on its axis. -/
theorem mem_blk1 (t : Fin cfg1.N) (i : S8192x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v3).slice (win1_3.rect t)).set ↔ _
  rw [View.set_slice_whole, Rect.mem_set_unit]
  exact Iff.rfl

/-- Every index of the array is in some point's block: row `r` is covered by point `r / 512`. -/
theorem cover1 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  obtain ⟨t, ht⟩ : ∃ t : Fin cfg1.N, t.val = (i 0).val / 512 :=
    ⟨⟨(i 0).val / 512, by show _ < grid1.N; rw [N_1]; omega⟩, rfl⟩
  obtain ⟨-, -, -, -, -, -, e0, e1⟩ := idx_facts1 t
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; rw [e0, ht]; omega
  | ⟨1, _⟩ => show win1_3.index t (1 : Fin 2) * 1024 ≤ (i 1).val ∧ (i 1).val < win1_3.index t (1 : Fin 2) * 1024 + 1024; rw [e1]; omega

/-- The output array after the region is `G1` of the array the region reads. -/
theorem arr1_eq (hpay : ∀ (v0 : Vec Ideal S512x1024 .bf16) (v2 v4 : Vec Ideal S2048x1024 .bf16) (p : Fin 512) (n : Fin 1024),
      (pay1_3 (F := Ideal) v0 v2 v4 : S512x1024.Idx → EReal) (ix2 p n)
        = Cert.Attn.battn (fun p n => (v0 (ix2 p n) : EReal)) (fun j n => (v2 (ix2 j n) : EReal)) (fun j n => (v4 (ix2 j n) : EReal)) p n)
    (V : (c : Dev nD) → (b : Ref sig .tc) → Buf (Elt Ideal) ((c : Thread nD τ).loc b)) (c : Dev nD) :
    (dat1 (F := Ideal) V c).arrAt 3 cfg1.N = G1 (V c main_v2) :=
  (dat1 (F := Ideal) V c).arrAt_eq_of_cover 3 (G1 (V c main_v2)) (fun t _ => flushed1_eq hpay V c t) cover1

/-- Every element of the result is the specification's attention of the array the region reads. -/
theorem final1 (hpay : ∀ (v0 : Vec Ideal S512x1024 .bf16) (v2 v4 : Vec Ideal S2048x1024 .bf16) (p : Fin 512) (n : Fin 1024),
      (pay1_3 (F := Ideal) v0 v2 v4 : S512x1024.Idx → EReal) (ix2 p n)
        = Cert.Attn.battn (fun p n => (v0 (ix2 p n) : EReal)) (fun j n => (v2 (ix2 j n) : EReal)) (fun j n => (v4 (ix2 j n) : EReal)) p n)
    (V : (c : Dev nD) → (b : Ref sig .tc) → Buf (Elt Ideal) ((c : Thread nD τ).loc b)) (c : Dev nD) (r : Fin 8192) (n : Fin 1024) :
    ((dat1 (F := Ideal) V c).arrAt 3 cfg1.N : S8192x1024.Idx → EReal) (ix2 r n)
      = Cert.Attn.attn (fun r k => (V c main_v2 : S8192x3072.Idx → EReal) (ix2 r k)) r n := by
  rw [arr1_eq hpay V c]
  rfl

end Cert.KernelIdeal.Hand

end
-- ==== Proof.KI.Val2.lean ====
/- The value of custom_call 2 on the extended reals: every element of its output array after the region is the
   row-by-column sum of the two operand arrays plus the bias of the column. -/
import proofs.«109098_j72773925864105_2_alg».proof.Proof.KI.Body2
import proofs.«109098_j72773925864105_2_alg».proof.Proof.Spec
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The payload at an index -/

/-- The dot's operand indices, axis by axis: the left operand is read at the output's row and the contraction
    coordinate, the right one at the contraction coordinate and the output's column. -/
theorem dot2_lhs_0 (i : S1024x1024.Idx) (k : dot_S1024x1024_S1024x1024_S1024x1024_1_0_0_1_n_n.contr.Idx) : (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem dot2_lhs_1 (i : S1024x1024.Idx) (k : dot_S1024x1024_S1024x1024_S1024x1024_1_0_0_1_n_n.contr.Idx) : (dot_S1024x1024_S1024x1024_S1024x1024_1_0_0_1_n_n.lhsIdx i k 1).val = (k ⟨0, by decide⟩).val :=
  dot_S1024x1024_S1024x1024_S1024x1024_1_0_0_1_n_n.lhsIdx_val_of_single rfl i k
theorem dot2_rhs_0 (i : S1024x1024.Idx) (k : dot_S1024x1024_S1024x1024_S1024x1024_1_0_0_1_n_n.contr.Idx) : (dot_S1024x1024_S1024x1024_S1024x1024_1_0_0_1_n_n.rhsIdx i k 0).val = (k ⟨0, by decide⟩).val :=
  dot_S1024x1024_S1024x1024_S1024x1024_1_0_0_1_n_n.rhsIdx_val_of_single rfl i k
theorem dot2_rhs_1 (i : S1024x1024.Idx) (k : dot_S1024x1024_S1024x1024_S1024x1024_1_0_0_1_n_n.contr.Idx) : (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The body's payload at `(p, q)`: the format changes are the identity on the extended reals, the product into the
    zero splat is the sum over the contraction coordinate, and the bias row is read at the column. -/
theorem pay2_apply (x0 : Vec Ideal S1024x1024 .bf16) (x1 : Vec Ideal S1024x1024 .f32) (x2 : Vec Ideal S1x1024 .f32)
    (p : Fin 1024) (q : Fin 1024) :
    (k2_pay1 (F := Ideal) x0 x1 x2 : S1024x1024.Idx → EReal) (ix2 p q)
      = (∑ k : Fin 1024, (x0 (ix2 p k) : EReal) * (x1 (ix2 k q) : EReal)) + (x2 (ix2 0 q) : EReal) := by
  unfold k2_pay1
  simp only [shapeCast_self, matmul]
  rw [addf_apply, Ideal.matmul_constant_zero_apply,
    broadcastTo_apply x2 broadcasts_S1x1024_S1024x1024 (ix2 p q) (ix2 0 q) (fun a => by
      match a with
      | ⟨0, _⟩ => rfl
      | ⟨1, _⟩ => rfl),
    ← Equiv.sum_comp (contrEquiv1 dot_S1024x1024_S1024x1024_S1024x1024_1_0_0_1_n_n 1024 rfl rfl).symm]
  congr 1
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact dot2_lhs_0 _ _
    | ⟨1, _⟩ => exact (dot2_lhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (dot2_rhs_0 _ _).trans hk
    | ⟨1, _⟩ => exact dot2_rhs_1 _ _)
  rw [el, er]
  rfl

/-! ## The blocks, read off the arrays -/

theorem hz2 : (![0, 0] : Fin 2 → Nat) = fun _ => 0 := funext fun a => by fin_cases a <;> rfl

/-- The printed index maps, decided over the grid: the row operand's window and the output's are at block row `t`,
    the matrix's and the bias row's windows stay at the one block they have. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0's block at point `t` is rows `1024 t … 1024 t + 1023` of its array. -/
theorem iblk2_0_apply (V : (c : Dev nD) → (b : Ref sig .tc) → Buf (Elt Ideal) ((c : Thread nD τ).loc b)) (c : Dev nD)
    (t : Fin cfg2.N) (x : S1024x1024.Idx) (i : S8192x1024.Idx)
    (h0 : (i 0).val = 1024 * t.val + (x 0).val) (h1 : (i 1).val = (x 1).val) :
    (iblk2 V c 0 t : S1024x1024.Idx → EReal) x = (V c main_v3 : S8192x1024.Idx → EReal) i := by
  obtain ⟨e0, e1, -⟩ := idx_facts2 t
  unfold iblk2
  rw [View.read_apply]
  show V c main_v3 _ = V c main_v3 _
  congr 1
  funext a
  apply Fin.ext
  match a with
  | ⟨0, _⟩ => show win2_0.index t (0 : Fin 2) * 1024 + 1 * (x 0).val = (i 0).val; rw [e0, h0]; omega
  | ⟨1, _⟩ => show win2_0.index t (1 : Fin 2) * 1024 + 1 * (x 1).val = (i 1).val; rw [e1, h1]; omega

/-- Window 1's block at every point is its whole array. -/
theorem iblk2_1_apply (V : (c : Dev nD) → (b : Ref sig .tc) → Buf (Elt Ideal) ((c : Thread nD τ).loc b)) (c : Dev nD)
    (t : Fin cfg2.N) (x : S1024x1024.Idx) (i : S1024x1024.Idx)
    (h0 : (i 0).val = (x 0).val) (h1 : (i 1).val = (x 1).val) :
    (iblk2 V c 1 t : S1024x1024.Idx → EReal) x = (V c main_arg3 : S1024x1024.Idx → EReal) i := by
  obtain ⟨-, -, e0, e1, -⟩ := idx_facts2 t
  unfold iblk2
  rw [View.read_apply]
  show V c main_arg3 _ = V c main_arg3 _
  congr 1
  funext a
  apply Fin.ext
  match a with
  | ⟨0, _⟩ => show win2_1.index t (0 : Fin 2) * 1024 + 1 * (x 0).val = (i 0).val; rw [e0, h0]; omega
  | ⟨1, _⟩ => show win2_1.index t (1 : Fin 2) * 1024 + 1 * (x 1).val = (i 1).val; rw [e1, h1]; omega

/-- Window 2's block at every point is its whole array, the bias row. -/
theorem iblk2_2_apply (V : (c : Dev nD) → (b : Ref sig .tc) → Buf (Elt Ideal) ((c : Thread nD τ).loc b)) (c : Dev nD)
    (t : Fin cfg2.N) (x : S1x1024.Idx) (i : S1x1024.Idx)
    (h0 : (i 0).val = (x 0).val) (h1 : (i 1).val = (x 1).val) :
    (iblk2 V c 2 t : S1x1024.Idx → EReal) x = (V c main_v4 : S1x1024.Idx → EReal) i := by
  obtain ⟨-, -, -, -, e0, e1, -⟩ := idx_facts2 t
  unfold iblk2
  rw [View.read_apply]
  show V c main_v4 _ = V c main_v4 _
  congr 1
  funext a
  apply Fin.ext
  match a with
  | ⟨0, _⟩ => show win2_2.index t (0 : Fin 2) * 1 + 1 * (x 0).val = (i 0).val; rw [e0, h0]; omega
  | ⟨1, _⟩ => show win2_2.index t (1 : Fin 2) * 1024 + 1 * (x 1).val = (i 1).val; rw [e1, h1]; omega

/-! ## Closed form: the output array as one function of the operand arrays, index by index -/

/-- The payload at any index of the block, by its coordinates. -/
theorem pay2_at (x0 : Vec Ideal S1024x1024 .bf16) (x1 : Vec Ideal S1024x1024 .f32) (x2 : Vec Ideal S1x1024 .f32) (j : S1024x1024.Idx) :
    (k2_pay1 (F := Ideal) x0 x1 x2 : S1024x1024.Idx → EReal) j
      = (∑ k : Fin 1024, (x0 (ix2 (⟨(j 0).val, (j 0).isLt⟩ : Fin 1024) k) : EReal) * (x1 (ix2 k (⟨(j 1).val, (j 1).isLt⟩ : Fin 1024)) : EReal))
        + (x2 (ix2 0 (⟨(j 1).val, (j 1).isLt⟩ : Fin 1024)) : EReal) := by
  obtain ⟨p, q, rfl⟩ : ∃ (p : Fin 1024) (q : Fin 1024), j = ix2 p q := ⟨j 0, j 1, eq_ix2 j⟩
  exact pay2_apply x0 x1 x2 p q

/-- What the output array ends holding: at row `r` and column `n` the sum over `k` of the row operand at `(r, k)`
    times the matrix at `(k, n)`, plus the bias row at `n`. -/
def G2 (a : S8192x1024.Idx → EReal) (w : S1024x1024.Idx → EReal) (b : S1x1024.Idx → EReal) : S8192x1024.Idx → EReal :=
  fun i => (∑ k : Fin 1024, a (ix2 (⟨(i 0).val, (i 0).isLt⟩ : Fin 8192) k) * w (ix2 k (⟨(i 1).val, (i 1).isLt⟩ : Fin 1024)))
    + b (ix2 0 (⟨(i 1).val, (i 1).isLt⟩ : Fin 1024))

/-- What point `t` writes back is block `t` of `G2` of the operand arrays as the region finds them. -/
theorem flushed2_eq (V : (c : Dev nD) → (b : Ref sig .tc) → Buf (Elt Ideal) ((c : Thread nD τ).loc b)) (c : Dev nD) (t : Fin cfg2.N) :
    (dat2 (F := Ideal) V c).flushed 3 t
      = ((cfg2.win 3).blk t).view.read (Elt Ideal) (G2 (V c main_v3) (V c main_arg3) (V c main_v4)) := by
  show (cfg2.win 3).cut (grid2.coords t) ((dat2 (F := Ideal) V c).after 3 t) = _
  rw [after2_3]
  unfold out2_3
  rw [View.canon_unit_zero hz2]
  simp only [View.ld_unit_zero (S := S1024x1024) hz2, View.ld_unit_zero (S := S1024x1024) hz2, View.ld_unit_zero (S := S1x1024) hz2]
  obtain ⟨-, -, -, -, -, -, e0, e1⟩ := idx_facts2 t
  funext j
  show (k2_pay1 (F := Ideal) (iblk2 V c 0 t) (iblk2 V c 1 t) (iblk2 V c 2 t) : S1024x1024.Idx → EReal) j
    = G2 (V c main_v3) (V c main_arg3) (V c main_v4) (((cfg2.win 3).blk t).view.emb j)
  refine (pay2_at (iblk2 V c 0 t) (iblk2 V c 1 t) (iblk2 V c 2 t) j).trans ?_
  have hj0 : (j 0).val < 1024 := (j 0).isLt
  have hj1 : (j 1).val < 1024 := (j 1).isLt
  have r0 : ((((cfg2.win 3).blk t).view.emb j) 0).val = 1024 * t.val + (j 0).val := by
    show win2_3.index t (0 : Fin 2) * 1024 + 1 * (j 0).val = _; rw [e0]; omega
  have r1 : ((((cfg2.win 3).blk t).view.emb j) 1).val = (j 1).val := by
    show win2_3.index t (1 : Fin 2) * 1024 + 1 * (j 1).val = _; rw [e1]; omega
  unfold G2
  refine congrArg₂ (· + ·) (Finset.sum_congr rfl fun k _ => congrArg₂ (· * ·) ?_ ?_) ?_
  · exact iblk2_0_apply V c t _ _ r0 rfl
  · exact iblk2_1_apply V c t _ _ rfl r1
  · exact iblk2_2_apply V c t _ _ rfl r1

/-- An index of the array is in point `t`'s block iff each coordinate is in the block's range on its axis. -/
theorem mem_blk2 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v5).slice (win2_3.rect t)).set ↔ _
  rw [View.set_slice_whole, Rect.mem_set_unit]
  exact Iff.rfl

/-- Every index of the array is in some point's block: row `r` is covered by point `r / 1024`. -/
theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ : ∃ t : Fin cfg2.N, t.val = (i 0).val / 1024 :=
    ⟨⟨(i 0).val / 1024, by show _ < grid2.N; rw [N_2]; omega⟩, rfl⟩
  obtain ⟨-, -, -, -, -, -, e0, e1⟩ := idx_facts2 t
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; rw [e0, ht]; omega
  | ⟨1, _⟩ => show win2_3.index t (1 : Fin 2) * 1024 ≤ (i 1).val ∧ (i 1).val < win2_3.index t (1 : Fin 2) * 1024 + 1024; rw [e1]; omega

/-- The output array after the region is `G2` of the operand arrays. -/
theorem arr2_eq (V : (c : Dev nD) → (b : Ref sig .tc) → Buf (Elt Ideal) ((c : Thread nD τ).loc b)) (c : Dev nD) :
    (dat2 (F := Ideal) V c).arrAt 3 cfg2.N = G2 (V c main_v3) (V c main_arg3) (V c main_v4) :=
  (dat2 (F := Ideal) V c).arrAt_eq_of_cover 3 (G2 (V c main_v3) (V c main_arg3) (V c main_v4)) (fun t _ => flushed2_eq V c t) cover2

/-- Every element of the result is the row-by-column sum plus the bias of the column. -/
theorem final2 (V : (c : Dev nD) → (b : Ref sig .tc) → Buf (Elt Ideal) ((c : Thread nD τ).loc b)) (c : Dev nD)
    (r : Fin 8192) (n : Fin 1024) :
    ((dat2 (F := Ideal) V c).arrAt 3 cfg2.N : S8192x1024.Idx → EReal) (ix2 r n)
      = Cert.Attn.lin (fun r k => (V c main_v3 : S8192x1024.Idx → EReal) (ix2 r k)) (fun k n => (V c main_arg3 : S1024x1024.Idx → EReal) (ix2 k n))
          (fun n => (V c main_v4 : S1x1024.Idx → EReal) (ix2 0 n)) r n := by
  rw [arr2_eq V c]
  rfl

end Cert.KernelIdeal.Hand

end
-- ==== Proof.KI.HostReads.lean ====
/-
  What the program's four host reshapes leave, read at an index: the input's rows as an 8192 x 1024 matrix
  (batch b, position t at row 2048 b + t), the two biases as one-row matrices, and the 8192 x 1024 result
  re-read as [4, 2048, 1024].
-/
import proofs.«109098_j72773925864105_2_alg».proof.Proof.Gen.KernelIdeal.Launch
import proofs.«109098_j72773925864105_2_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx
open Idealize.ShloMosaic.StableHlo

variable {F : FTy → Type} [FloatOps F]

/-- Row r, column k of the input reshaped to 8192 x 1024 is the input at batch r / 2048, position r % 2048. -/
theorem read_v0 (W : Valuation τ sig (Elt F)) (r : Fin 8192) (k : Fin 1024) :
    ((StableHlo.after hostOps0 W) (Proc.devRef .tc main_v0) : S8192x1024.Idx → F .f32) (ix2 r k)
      = (W (Proc.devRef .tc main_arg0) : S4x2048x1024.Idx → F .f32) (ix3 (⟨r.val / 2048, by have := r.isLt; omega⟩ : Fin 4) (⟨r.val % 2048, Nat.mod_lt _ (by norm_num)⟩ : Fin 2048) k) := by
  have e : ((StableHlo.after hostOps0 W) (Proc.devRef .tc main_v0) : S8192x1024.Idx → F .f32)
      = shapeCast S8192x1024 (W (Proc.devRef .tc main_arg0) : S4x2048x1024.Idx → F .f32) shapeCasts_S4x2048x1024_S8192x1024 := by
    show StableHlo.after hostOps0 W (Proc.devRef .tc main_v0) = _
    after_results
    rfl
  rw [e]
  refine shapeCast_apply (s := S4x2048x1024) (t := S8192x1024) _ _ _ _ ?_
  rewrite [Shape.rowMajor_val_three, Shape.rowMajor_val_two]
  have := r.isLt
  show (r.val / 2048 * 2048 + r.val % 2048) * 1024 + k.val = r.val * 1024 + k.val
  omega

/-- The projection's bias as a one-row matrix. -/
theorem read_v1 (W : Valuation τ sig (Elt F)) (n : Fin 3072) :
    ((StableHlo.after hostOps0 W) (Proc.devRef .tc main_v1) : S1x3072.Idx → F .f32) (ix2 (0 : Fin 1) n)
      = (W (Proc.devRef .tc main_arg2) : S3072.Idx → F .f32) (ix1 n) := by
  have e : ((StableHlo.after hostOps0 W) (Proc.devRef .tc main_v1) : S1x3072.Idx → F .f32)
      = shapeCast S1x3072 (W (Proc.devRef .tc main_arg2) : S3072.Idx → F .f32) shapeCasts_S3072_S1x3072 := by
    show StableHlo.after hostOps0 W (Proc.devRef .tc main_v1) = _
    after_results
    rfl
  rw [e]
  refine shapeCast_apply (s := S3072) (t := S1x3072) _ _ _ _ ?_
  rewrite [Shape.rowMajor_val_one, Shape.rowMajor_val_two]
  have := n.isLt
  show n.val = 0 * 3072 + n.val
  omega

/-- The output projection's bias as a one-row matrix. -/
theorem read_v4 (W : Valuation τ sig (Elt F)) (n : Fin 1024) :
    ((StableHlo.after hostOps2 W) (Proc.devRef .tc main_v4) : S1x1024.Idx → F .f32) (ix2 (0 : Fin 1) n)
      = (W (Proc.devRef .tc main_arg4) : S1024.Idx → F .f32) (ix1 n) := by
  have e : ((StableHlo.after hostOps2 W) (Proc.devRef .tc main_v4) : S1x1024.Idx → F .f32)
      = shapeCast S1x1024 (W (Proc.devRef .tc main_arg4) : S1024.Idx → F .f32) shapeCasts_S1024_S1x1024 := by
    show StableHlo.after hostOps2 W (Proc.devRef .tc main_v4) = _
    after_results
    rfl
  rw [e]
  refine shapeCast_apply (s := S1024) (t := S1x1024) _ _ _ _ ?_
  rewrite [Shape.rowMajor_val_one, Shape.rowMajor_val_two]
  have := n.isLt
  show n.val = 0 * 1024 + n.val
  omega

/-- The 8192 x 1024 result re-read as [4, 2048, 1024]: element (b, p, n) is row 2048 b + p, column n. -/
theorem read_v6 (W : Valuation τ sig (Elt F)) (b : Fin 4) (p : Fin 2048) (n : Fin 1024) :
    ((StableHlo.after hostOps3 W) (Proc.devRef .tc main_v6) : S4x2048x1024.Idx → F .f32) (ix3 b p n)
      = (W (Proc.devRef .tc main_v5) : S8192x1024.Idx → F .f32) (ix2 (⟨2048 * b.val + p.val, by have := b.isLt; have := p.isLt; omega⟩ : Fin 8192) n) := by
  have e : ((StableHlo.after hostOps3 W) (Proc.devRef .tc main_v6) : S4x2048x1024.Idx → F .f32)
      = shapeCast S4x2048x1024 (W (Proc.devRef .tc main_v5) : S8192x1024.Idx → F .f32) shapeCasts_S8192x1024_S4x2048x1024 := by
    show StableHlo.after hostOps3 W (Proc.devRef .tc main_v6) = _
    after_results
    rfl
  rw [e]
  refine shapeCast_apply (s := S8192x1024) (t := S4x2048x1024) _ _ _ _ ?_
  rewrite [Shape.rowMajor_val_two, Shape.rowMajor_val_three]
  have := b.isLt
  show (2048 * b.val + p.val) * 1024 + n.val = (b.val * 2048 + p.val) * 1024 + n.val
  omega

end Cert.KernelIdeal.Hand

end
-- ==== Proof.KI.Bridge.lean ====
/- The kernel program's result in the specification's terms, on the extended reals: the buffer the last reshape
   writes, read at (batch, position, column), is the specification's function of the five argument arrays as
   launched. The three regions' output arrays are read in closed form, the four reshapes at an index, and every
   other buffer is carried unchanged from boundary to boundary. -/
import proofs.«109098_j72773925864105_2_alg».proof.Proof.KI.Run
import proofs.«109098_j72773925864105_2_alg».proof.Proof.KI.Val0
import proofs.«109098_j72773925864105_2_alg».proof.Proof.KI.Val1
import proofs.«109098_j72773925864105_2_alg».proof.Proof.KI.Val2
import proofs.«109098_j72773925864105_2_alg».proof.Proof.KI.HostReads
import proofs.«109098_j72773925864105_2_alg».proof.Proof.KI.Pay1

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! ## Buffers no reshape writes and no region changes, carried from the launch -/

/-- Before region 0: a buffer the first reshapes do not write holds its launch contents. -/
theorem W1_keep (c : Dev nD) (a : Ref sig .tc) (h0 : a ∉ hostOps0_W) :
    W1 m c (Proc.devRef .tc a) = m ((c.tc : Thread nD τ).loc a) :=
  StableHlo.after_of_writes_sub hostOps0 _ hostOps0_writes h0

/-- Before the bias's reshape: a buffer that is neither written by the first reshapes, nor an array of region 0, nor
    the attention's output holds its launch contents. -/
theorem W3_keep (c : Dev nD) (a : Ref sig .tc) (h0 : a ∉ hostOps0_W) (h2 : ∀ w, Pipeline.arrRef spec0 w ≠ a) (h3 : a ≠ main_v3) :
    W3 m c (Proc.devRef .tc a) = m ((c.tc : Thread nD τ).loc a) :=
  (W3_of_ne m c a h3).trans ((W2_of_ne m c a h2).trans (W1_keep m c a h0))

/-- Before region 2: the same of a buffer the bias's reshape does not write either. -/
theorem W4_keep (c : Dev nD) (a : Ref sig .tc) (h0 : a ∉ hostOps0_W) (h2 : ∀ w, Pipeline.arrRef spec0 w ≠ a) (h3 : a ≠ main_v3)
    (h4 : a ∉ hostOps2_W) :
    W4 m c (Proc.devRef .tc a) = m ((c.tc : Thread nD τ).loc a) :=
  (StableHlo.after_of_writes_sub hostOps2 _ hostOps2_writes h4).trans (W3_keep m c a h0 h2 h3)

/-! ## The specification's matrices, read off the launch memory -/

/-- The input's rows: batch `r / 2048`, position `r % 2048`. -/
abbrev mX (c : Dev nD) : Cert.Attn.Mat 8192 1024 := fun r k =>
  (m ((c.tc : Thread nD τ).loc main_arg0) : S4x2048x1024.Idx → EReal)
    (ix3 (⟨r.val / 2048, by have := r.isLt; omega⟩ : Fin 4) (⟨r.val % 2048, Nat.mod_lt _ (by norm_num)⟩ : Fin 2048) k)
/-- The two weight matrices and the two biases. -/
abbrev mWqkv (c : Dev nD) : Cert.Attn.Mat 1024 3072 := fun k n => (m ((c.tc : Thread nD τ).loc main_arg1) : S1024x3072.Idx → EReal) (ix2 k n)
abbrev mBqkv (c : Dev nD) : Fin 3072 → EReal := fun n => (m ((c.tc : Thread nD τ).loc main_arg2) : S3072.Idx → EReal) (ix1 n)
abbrev mWout (c : Dev nD) : Cert.Attn.Mat 1024 1024 := fun k n => (m ((c.tc : Thread nD τ).loc main_arg3) : S1024x1024.Idx → EReal) (ix2 k n)
abbrev mBout (c : Dev nD) : Fin 1024 → EReal := fun n => (m ((c.tc : Thread nD τ).loc main_arg4) : S1024.Idx → EReal) (ix1 n)

section Reads

/-! ## The chain, from what the reshapes leave at an index -/

variable
  (read_v0 : ∀ (W : Valuation τ sig (Elt Ideal)) (r : Fin 8192) (k : Fin 1024),
    ((StableHlo.after (hostOps0 (F := Ideal)) W) (Proc.devRef .tc main_v0) : S8192x1024.Idx → EReal) (ix2 r k)
      = (W (Proc.devRef .tc main_arg0) : S4x2048x1024.Idx → EReal)
          (ix3 (⟨r.val / 2048, by have := r.isLt; omega⟩ : Fin 4) (⟨r.val % 2048, Nat.mod_lt _ (by norm_num)⟩ : Fin 2048) k))
  (read_v1 : ∀ (W : Valuation τ sig (Elt Ideal)) (n : Fin 3072),
    ((StableHlo.after (hostOps0 (F := Ideal)) W) (Proc.devRef .tc main_v1) : S1x3072.Idx → EReal) (ix2 0 n)
      = (W (Proc.devRef .tc main_arg2) : S3072.Idx → EReal) (ix1 n))
  (read_v4 : ∀ (W : Valuation τ sig (Elt Ideal)) (n : Fin 1024),
    ((StableHlo.after (hostOps2 (F := Ideal)) W) (Proc.devRef .tc main_v4) : S1x1024.Idx → EReal) (ix2 0 n)
      = (W (Proc.devRef .tc main_arg4) : S1024.Idx → EReal) (ix1 n))
  (read_v6 : ∀ (W : Valuation τ sig (Elt Ideal)) (b : Fin 4) (p : Fin 2048) (n : Fin 1024),
    ((StableHlo.after (hostOps3 (F := Ideal)) W) (Proc.devRef .tc main_v6) : S4x2048x1024.Idx → EReal) (ix3 b p n)
      = (W (Proc.devRef .tc main_v5) : S8192x1024.Idx → EReal)
          (ix2 (⟨2048 * b.val + p.val, by have := b.isLt; have := p.isLt; omega⟩ : Fin 8192) n))

include read_v0 read_v1 in
/-- Region 0's output array is the first linear layer of the input's rows. -/
theorem qkv_eq (c : Dev nD) (r : Fin 8192) (n : Fin 3072) :
    (U2 m c main_v2 : S8192x3072.Idx → EReal) (ix2 r n) = Cert.Attn.lin (mX m c) (mWqkv m c) (mBqkv m c) r n := by
  have hA : (U2 m c main_v2 : S8192x3072.Idx → EReal) = ((dat0 (F := Ideal) (U1 m) c).arrAt 3 cfg0.N : S8192x3072.Idx → EReal) :=
    W2_arr m c 3
  rw [hA, final0 (U1 m) c r n]
  have h0 : (fun (r : Fin 8192) (k : Fin 1024) => (U1 m c main_v0 : S8192x1024.Idx → EReal) (ix2 r k)) = mX m c :=
    funext fun r => funext fun k => read_v0 (W0 m c) r k
  have h1 : (fun (k : Fin 1024) (n : Fin 3072) => (U1 m c main_arg1 : S1024x3072.Idx → EReal) (ix2 k n)) = mWqkv m c :=
    funext fun k => funext fun n => congrFun (W1_keep m c main_arg1 (by decide)) (ix2 k n)
  have h2 : (fun (n : Fin 3072) => (U1 m c main_v1 : S1x3072.Idx → EReal) (ix2 0 n)) = mBqkv m c :=
    funext fun n => read_v1 (W0 m c) n
  exact congrFun (congrFun (congr (congr (congrArg Cert.Attn.lin h0) h1) h2) r) n

include read_v0 read_v1 in
/-- Region 1's output array is the attention of that. -/
theorem attn_eq (hpay : ∀ (v0 : Vec Ideal S512x1024 .bf16) (v2 v4 : Vec Ideal S2048x1024 .bf16) (p : Fin 512) (n : Fin 1024),
      (pay1_3 (F := Ideal) v0 v2 v4 : S512x1024.Idx → EReal) (ix2 p n)
        = Cert.Attn.battn (fun p n => (v0 (ix2 p n) : EReal)) (fun j n => (v2 (ix2 j n) : EReal)) (fun j n => (v4 (ix2 j n) : EReal)) p n)
    (c : Dev nD) (r : Fin 8192) (n : Fin 1024) :
    (U3 m c main_v3 : S8192x1024.Idx → EReal) (ix2 r n)
      = Cert.Attn.attn (Cert.Attn.lin (mX m c) (mWqkv m c) (mBqkv m c)) r n := by
  rw [W3_main_v3 m c, final1 hpay (U2 m) c r n]
  have h : (fun (r : Fin 8192) (k : Fin 3072) => (U2 m c main_v2 : S8192x3072.Idx → EReal) (ix2 r k))
      = Cert.Attn.lin (mX m c) (mWqkv m c) (mBqkv m c) :=
    funext fun r => funext fun k => qkv_eq m read_v0 read_v1 c r k
  exact congrFun (congrFun (congrArg Cert.Attn.attn h) r) n

include read_v0 read_v1 read_v4 in
/-- Region 2's output array is the second linear layer of that. -/
theorem out_eq (hpay : ∀ (v0 : Vec Ideal S512x1024 .bf16) (v2 v4 : Vec Ideal S2048x1024 .bf16) (p : Fin 512) (n : Fin 1024),
      (pay1_3 (F := Ideal) v0 v2 v4 : S512x1024.Idx → EReal) (ix2 p n)
        = Cert.Attn.battn (fun p n => (v0 (ix2 p n) : EReal)) (fun j n => (v2 (ix2 j n) : EReal)) (fun j n => (v4 (ix2 j n) : EReal)) p n)
    (c : Dev nD) (r : Fin 8192) (n : Fin 1024) :
    (W5 m c (Proc.devRef .tc main_v5) : S8192x1024.Idx → EReal) (ix2 r n)
      = Cert.Attn.mha (mX m c) (mWqkv m c) (mBqkv m c) (mWout m c) (mBout m c) r n := by
  have hA : (W5 m c (Proc.devRef .tc main_v5) : S8192x1024.Idx → EReal) = ((dat2 (F := Ideal) (U4 m) c).arrAt 3 cfg2.N : S8192x1024.Idx → EReal) :=
    W5_arr m c 3
  rw [hA, final2 (U4 m) c r n]
  have e3 : (U4 m c main_v3 : S8192x1024.Idx → EReal) = (U3 m c main_v3 : S8192x1024.Idx → EReal) :=
    StableHlo.after_of_writes_sub hostOps2 _ hostOps2_writes (by decide)
  have h0 : (fun (r : Fin 8192) (k : Fin 1024) => (U4 m c main_v3 : S8192x1024.Idx → EReal) (ix2 r k))
      = Cert.Attn.attn (Cert.Attn.lin (mX m c) (mWqkv m c) (mBqkv m c)) :=
    funext fun r => funext fun k => (congrFun e3 (ix2 r k)).trans (attn_eq m read_v0 read_v1 hpay c r k)
  have h1 : (fun (k : Fin 1024) (n : Fin 1024) => (U4 m c main_arg3 : S1024x1024.Idx → EReal) (ix2 k n)) = mWout m c :=
    funext fun k => funext fun n => congrFun (W4_keep m c main_arg3 (by decide) (by decide) (by decide) (by decide)) (ix2 k n)
  have h2 : (fun (n : Fin 1024) => (U4 m c main_v4 : S1x1024.Idx → EReal) (ix2 0 n)) = mBout m c :=
    funext fun n => (read_v4 (W3 m c) n).trans (congrFun (W3_keep m c main_arg4 (by decide) (by decide) (by decide)) (ix1 n))
  exact congrFun (congrFun (congr (congr (congrArg Cert.Attn.lin h0) h1) h2) r) n

include read_v0 read_v1 read_v4 read_v6 in
/-- The result buffer, read at (batch, position, column), is the specification's function of the arguments. -/
theorem result_eq_of (hpay : ∀ (v0 : Vec Ideal S512x1024 .bf16) (v2 v4 : Vec Ideal S2048x1024 .bf16) (p : Fin 512) (n : Fin 1024),
      (pay1_3 (F := Ideal) v0 v2 v4 : S512x1024.Idx → EReal) (ix2 p n)
        = Cert.Attn.battn (fun p n => (v0 (ix2 p n) : EReal)) (fun j n => (v2 (ix2 j n) : EReal)) (fun j n => (v4 (ix2 j n) : EReal)) p n)
    (c : Dev nD) (b : Fin 4) (p : Fin 2048) (n : Fin 1024) :
    (W6 (F := Ideal) m c (Proc.devRef .tc main_v6) : S4x2048x1024.Idx → EReal) (ix3 b p n)
      = Cert.Attn.mha (mX m c) (mWqkv m c) (mBqkv m c) (mWout m c) (mBout m c)
          (⟨2048 * b.val + p.val, by have := b.isLt; have := p.isLt; omega⟩ : Fin 8192) n :=
  (read_v6 (W5 m c) b p n).trans (out_eq m read_v0 read_v1 read_v4 hpay c _ n)

end Reads

/-- THE KERNEL PROGRAM'S RESULT IS THE SPECIFICATION: the buffer the last reshape writes, at (b, p, n), is the
    specification's function of the input's rows, the two weight matrices and the two biases as launched, at row
    2048 b + p and column n. -/
theorem result_eq (hpay : ∀ (v0 : Vec Ideal S512x1024 .bf16) (v2 v4 : Vec Ideal S2048x1024 .bf16) (p : Fin 512) (n : Fin 1024),
      (pay1_3 (F := Ideal) v0 v2 v4 : S512x1024.Idx → EReal) (ix2 p n)
        = Cert.Attn.battn (fun p n => (v0 (ix2 p n) : EReal)) (fun j n => (v2 (ix2 j n) : EReal)) (fun j n => (v4 (ix2 j n) : EReal)) p n)
    (m : (ℓ : Loc nD τ sig) → Buf (Elt Ideal) ℓ) (c : Dev nD) (b : Fin 4) (p : Fin 2048) (n : Fin 1024) :
    (W6 (F := Ideal) m c (Proc.devRef .tc main_v6) : S4x2048x1024.Idx → EReal) (ix3 b p n)
      = Cert.Attn.mha
          (fun r k => (m ((c.tc : Thread nD τ).loc main_arg0) : S4x2048x1024.Idx → EReal)
            (ix3 (⟨r.val / 2048, by have := r.isLt; omega⟩ : Fin 4) (⟨r.val % 2048, Nat.mod_lt _ (by norm_num)⟩ : Fin 2048) k))
          (fun k n => (m ((c.tc : Thread nD τ).loc main_arg1) : S1024x3072.Idx → EReal) (ix2 k n))
          (fun n => (m ((c.tc : Thread nD τ).loc main_arg2) : S3072.Idx → EReal) (ix1 n))
          (fun k n => (m ((c.tc : Thread nD τ).loc main_arg3) : S1024x1024.Idx → EReal) (ix2 k n))
          (fun n => (m ((c.tc : Thread nD τ).loc main_arg4) : S1024.Idx → EReal) (ix1 n))
          (⟨2048 * b.val + p.val, by have := b.isLt; have := p.isLt; omega⟩ : Fin 8192) n :=
  result_eq_of m (fun W r k => read_v0 W r k) (fun W n => read_v1 W n) (fun W n => read_v4 W n) (fun W b p n => read_v6 W b p n) hpay c b p n

/-- The same with the body's payload lemma supplied: no hypothesis left. -/
theorem result_eq' (m : (ℓ : Loc nD τ sig) → Buf (Elt Ideal) ℓ) (c : Dev nD) (b : Fin 4) (p : Fin 2048) (n : Fin 1024) :
    (W6 (F := Ideal) m c (Proc.devRef .tc main_v6) : S4x2048x1024.Idx → EReal) (ix3 b p n)
      = Cert.Attn.mha
          (fun r k => (m ((c.tc : Thread nD τ).loc main_arg0) : S4x2048x1024.Idx → EReal)
            (ix3 (⟨r.val / 2048, by have := r.isLt; omega⟩ : Fin 4) (⟨r.val % 2048, Nat.mod_lt _ (by norm_num)⟩ : Fin 2048) k))
          (fun k n => (m ((c.tc : Thread nD τ).loc main_arg1) : S1024x3072.Idx → EReal) (ix2 k n))
          (fun n => (m ((c.tc : Thread nD τ).loc main_arg2) : S3072.Idx → EReal) (ix1 n))
          (fun k n => (m ((c.tc : Thread nD τ).loc main_arg3) : S1024x1024.Idx → EReal) (ix2 k n))
          (fun n => (m ((c.tc : Thread nD τ).loc main_arg4) : S1024.Idx → EReal) (ix1 n))
          (⟨2048 * b.val + p.val, by have := b.isLt; have := p.isLt; omega⟩ : Fin 8192) n :=
  result_eq (fun v0 v2 v4 p n => pay1_3_apply v0 v2 v4 p n) m c b p n

end Cert.KernelIdeal.Hand

end
-- ==== Proof.Ref.Scale.lean ====
/-
  The float words the reference's softmax meets, as extended reals: the scale 1/sqrt 64 computed on the host
  is the word 0x3E000000 (both are the real 1/8); the word 0xFF800000 is minus infinity.
-/
import proofs.«109098_j72773925864105_2_alg».proof.Proof.Spec

noncomputable section

namespace Cert.ReferenceIdeal.RefValue

open Idealize.ShloMosaic

/-- The word 0x42800000 is 64. -/
theorem ofBits_64 : Ideal.ofBits .f32 0x42800000#32 = ((64 : ℝ) : EReal) := by
  simp [Ideal.ofBits, Ideal.ieee, -EReal.coe_mul]
  norm_num

/-- The word 0x3F800000 is 1. -/
theorem ofBits_one : Ideal.ofBits .f32 0x3F800000#32 = ((1 : ℝ) : EReal) := by
  simp [Ideal.ofBits, Ideal.ieee, -EReal.coe_mul]
  norm_num

/-- The word 0x3E000000 is 1/8. -/
theorem ofBits_eighth : Ideal.ofBits .f32 0x3E000000#32 = ((1 / 8 : ℝ) : EReal) := by
  simp [Ideal.ofBits, Ideal.ieee, -EReal.coe_mul]
  norm_num

/-- The word 0xFF800000 is minus infinity. -/
theorem ofBits_neg_inf : Ideal.ofBits .f32 0xFF800000#32 = (⊥ : EReal) := by
  simp [Ideal.ofBits, Ideal.ieee]

/-- One over the square root of 64, as the host computes it, is the specification's scale. -/
theorem scale_eq :
    Ideal.div (Ideal.ofBits .f32 0x3F800000#32) (Ideal.sqrt (Ideal.ofBits .f32 0x42800000#32)) = Cert.Attn.scale := by
  have h8 : Real.sqrt 64 = 8 := by
    rw [show (64 : ℝ) = 8 ^ 2 by norm_num]
    exact Real.sqrt_sq (by norm_num)
  rw [Cert.Attn.scale, ofBits_64, ofBits_one, ofBits_eighth, Ideal.sqrt_coe, if_neg (by norm_num), h8,
    Ideal.div_coe (by norm_num)]
  rw [← EReal.coe_mul]
  norm_num

end Cert.ReferenceIdeal.RefValue

end
-- ==== Proof.Ref.Qkv.lean ====
/-
  The reference's projected rows: the element (b, t, n) of x @ W_qkv + b_qkv is the specification's `lin` at row
  2048 b + t and column n, and the three slices q, k, v of its reshaped and transposed copy read it at the head's
  query, key and value columns.
-/
import proofs.«109098_j72773925864105_2_alg».proof.Proof.Spec
import proofs.«109098_j72773925864105_2_alg».proof.Proof.Gen.ReferenceIdeal.Read

noncomputable section

namespace Cert.ReferenceIdeal.RefValue

open Cert.ReferenceIdeal Cert.ReferenceIdeal.Read Idealize.ShloMosaic Idealize.ShloMosaic.ValueIdx Cert.Attn

/-- The argument arrays of the reference at the ideal values. -/
abbrev TX := (⟨S4x2048x1024, .f32⟩ : BufTy).Contents (Elt Ideal)
abbrev TWqkv := (⟨S1024x3072, .f32⟩ : BufTy).Contents (Elt Ideal)
abbrev TBqkv := (⟨S3072, .f32⟩ : BufTy).Contents (Elt Ideal)
abbrev TWout := (⟨S1024x1024, .f32⟩ : BufTy).Contents (Elt Ideal)
abbrev TBout := (⟨S1024, .f32⟩ : BufTy).Contents (Elt Ideal)

/-- Row 2048 b + t of the 8192 rows. -/
def row (b : Fin 4) (t : Fin 2048) : Fin 8192 := ⟨2048 * b.val + t.val, by have := b.isLt; have := t.isLt; omega⟩

/-- The input's rows as a matrix. -/
def xMat (x0 : TX) : Mat 8192 1024 := fun r k =>
  x0 (ix3 ⟨r.val / 2048, by have := r.isLt; omega⟩ ⟨r.val % 2048, Nat.mod_lt _ (by norm_num)⟩ k)

/-- The projected rows q | k | v as a matrix. -/
def qkvMat (x0 : TX) (x1 : TWqkv) (x2 : TBqkv) : Mat 8192 3072 :=
  lin (xMat x0) (fun k n => x1 (ix2 k n)) (fun n => x2 (ix1 n))

/-- Element (b, t, n) of x @ W_qkv + b_qkv. -/
theorem v3_eq (x0 : TX) (x1 : TWqkv) (x2 : TBqkv) (b : Fin 4) (t : Fin 2048) (n : Fin 3072) :
    val_main_v3 (F := Ideal) x0 x1 x2 (ix3 b t n) = qkvMat x0 x1 x2 (row b t) n := by
  have hl : ∀ k : Fin 1024, lidx_main_v0 (ix3 b t n) k
      = ix3 ⟨(row b t).val / 2048, by have := (row b t).isLt; omega⟩ ⟨(row b t).val % 2048, Nat.mod_lt _ (by norm_num)⟩ k := fun k =>
    funext fun a => Fin.ext (by
      have := b.isLt; have := t.isLt
      match a with
      | ⟨0, _⟩ => show b.val = (2048 * b.val + t.val) / 2048; omega
      | ⟨1, _⟩ => show t.val = (2048 * b.val + t.val) % 2048; omega
      | ⟨2, _⟩ => rfl)
  have hr : ∀ k : Fin 1024, ridx_main_v0 (ix3 b t n) k = ix2 k n := fun k =>
    funext fun a => Fin.ext (by match a with | ⟨0, _⟩ => rfl | ⟨1, _⟩ => rfl)
  have hb : idx_main_v1 (idx_main_v2 (ix3 b t n)) = ix1 n :=
    funext fun a => Fin.ext (by match a with | ⟨0, _⟩ => rfl)
  rw [val_main_v3_apply, val_main_v0_apply, val_main_v2_apply, val_main_v1_apply, hb]
  simp only [hl, hr, Ideal.addf_def]
  rfl

/-- The flat position of (b, h, t, e) in a [4, 16, 2048, 64] array, re-read through the reshape from
    [1, 4, 16, 2048, 64], gives the same four coordinates back. -/
theorem unflatten4 (b : Fin 4) (h : Fin 16) (t : Fin 2048) (e : Fin 64) :
    (((b.val * 16 + h.val) * 2048 + t.val) * 64 + e.val) / 2097152 % 4 = b.val
    ∧ (((b.val * 16 + h.val) * 2048 + t.val) * 64 + e.val) / 131072 % 16 = h.val
    ∧ (((b.val * 16 + h.val) * 2048 + t.val) * 64 + e.val) / 64 % 2048 = t.val
    ∧ (((b.val * 16 + h.val) * 2048 + t.val) * 64 + e.val) % 64 = e.val := by
  have := b.isLt; have := h.isLt; have := t.isLt; have := e.isLt
  omega

/-- The slice `s` of 3 of the reshaped, transposed projection at (b, h, t, e) is the projection's element
    (b, t, 1024 s + 64 h + e). -/
theorem unflatten5 (b : Fin 4) (h : Fin 16) (t : Fin 2048) (e : Fin 64) (s : ℕ) (hs : s < 3) :
    ((((b.val * 2048 + t.val) * 3 + s) * 16 + h.val) * 64 + e.val) / 6291456 = b.val
    ∧ ((((b.val * 2048 + t.val) * 3 + s) * 16 + h.val) * 64 + e.val) / 3072 % 2048 = t.val
    ∧ ((((b.val * 2048 + t.val) * 3 + s) * 16 + h.val) * 64 + e.val) % 3072 = 1024 * s + (64 * h.val + e.val) := by
  have := b.isLt; have := h.isLt; have := t.isLt; have := e.isLt
  omega

/-- Query element (b, h, t, e): the projection at row 2048 b + t, column 64 h + e. -/
theorem v7_eq (x0 : TX) (x1 : TWqkv) (x2 : TBqkv) (b : Fin 4) (h : Fin 16) (t : Fin 2048) (e : Fin 64) :
    val_main_v7 (F := Ideal) x0 x1 x2 (ix4 b h t e) = qkvMat x0 x1 x2 (row b t) (qcol h e) := by
  have hi : idx_main_v4 (idx_main_v5 (idx_main_v6 (idx_main_v7 (ix4 b h t e)))) = ix3 b t (qcol h e) := by
    obtain ⟨u0, u1, u2, u3⟩ := unflatten4 b h t e
    obtain ⟨w0, w1, w2⟩ := unflatten5 b h t e 0 (by norm_num)
    funext a; apply Fin.ext
    match a with
    | ⟨0, _⟩ =>
      show ((((((((b.val * 16 + h.val) * 2048 + t.val) * 64 + e.val) / 2097152 % 4) * 2048 + (((b.val * 16 + h.val) * 2048 + t.val) * 64 + e.val) / 64 % 2048) * 3 + 0) * 16 + (((b.val * 16 + h.val) * 2048 + t.val) * 64 + e.val) / 131072 % 16) * 64 + (((b.val * 16 + h.val) * 2048 + t.val) * 64 + e.val) % 64) / 6291456 = b.val
      rw [u0, u1, u2, u3]; exact w0
    | ⟨1, _⟩ =>
      show ((((((((b.val * 16 + h.val) * 2048 + t.val) * 64 + e.val) / 2097152 % 4) * 2048 + (((b.val * 16 + h.val) * 2048 + t.val) * 64 + e.val) / 64 % 2048) * 3 + 0) * 16 + (((b.val * 16 + h.val) * 2048 + t.val) * 64 + e.val) / 131072 % 16) * 64 + (((b.val * 16 + h.val) * 2048 + t.val) * 64 + e.val) % 64) / 3072 % 2048 = t.val
      rw [u0, u1, u2, u3]; exact w1
    | ⟨2, _⟩ =>
      show ((((((((b.val * 16 + h.val) * 2048 + t.val) * 64 + e.val) / 2097152 % 4) * 2048 + (((b.val * 16 + h.val) * 2048 + t.val) * 64 + e.val) / 64 % 2048) * 3 + 0) * 16 + (((b.val * 16 + h.val) * 2048 + t.val) * 64 + e.val) / 131072 % 16) * 64 + (((b.val * 16 + h.val) * 2048 + t.val) * 64 + e.val) % 64) % 3072 = 64 * h.val + e.val
      rw [u0, u1, u2, u3]; exact w2.trans (by omega)
  rw [val_main_v7_apply, val_main_v6_apply, val_main_v5_apply, val_main_v4_apply, hi, v3_eq]

/-- Key element (b, h, t, e): the projection at row 2048 b + t, column 1024 + 64 h + e. -/
theorem v9_eq (x0 : TX) (x1 : TWqkv) (x2 : TBqkv) (b : Fin 4) (h : Fin 16) (t : Fin 2048) (e : Fin 64) :
    val_main_v9 (F := Ideal) x0 x1 x2 (ix4 b h t e) = qkvMat x0 x1 x2 (row b t) (kcol h e) := by
  have hi : idx_main_v4 (idx_main_v5 (idx_main_v8 (idx_main_v9 (ix4 b h t e)))) = ix3 b t (kcol h e) := by
    obtain ⟨u0, u1, u2, u3⟩ := unflatten4 b h t e
    obtain ⟨w0, w1, w2⟩ := unflatten5 b h t e 1 (by norm_num)
    funext a; apply Fin.ext
    match a with
    | ⟨0, _⟩ =>
      show ((((((((b.val * 16 + h.val) * 2048 + t.val) * 64 + e.val) / 2097152 % 4) * 2048 + (((b.val * 16 + h.val) * 2048 + t.val) * 64 + e.val) / 64 % 2048) * 3 + (1 + 0)) * 16 + (((b.val * 16 + h.val) * 2048 + t.val) * 64 + e.val) / 131072 % 16) * 64 + (((b.val * 16 + h.val) * 2048 + t.val) * 64 + e.val) % 64) / 6291456 = b.val
      rw [u0, u1, u2, u3]; exact w0
    | ⟨1, _⟩ =>
      show ((((((((b.val * 16 + h.val) * 2048 + t.val) * 64 + e.val) / 2097152 % 4) * 2048 + (((b.val * 16 + h.val) * 2048 + t.val) * 64 + e.val) / 64 % 2048) * 3 + (1 + 0)) * 16 + (((b.val * 16 + h.val) * 2048 + t.val) * 64 + e.val) / 131072 % 16) * 64 + (((b.val * 16 + h.val) * 2048 + t.val) * 64 + e.val) % 64) / 3072 % 2048 = t.val
      rw [u0, u1, u2, u3]; exact w1
    | ⟨2, _⟩ =>
      show ((((((((b.val * 16 + h.val) * 2048 + t.val) * 64 + e.val) / 2097152 % 4) * 2048 + (((b.val * 16 + h.val) * 2048 + t.val) * 64 + e.val) / 64 % 2048) * 3 + (1 + 0)) * 16 + (((b.val * 16 + h.val) * 2048 + t.val) * 64 + e.val) / 131072 % 16) * 64 + (((b.val * 16 + h.val) * 2048 + t.val) * 64 + e.val) % 64) % 3072 = 1024 + (64 * h.val + e.val)
      rw [u0, u1, u2, u3]; exact w2.trans (by omega)
  rw [val_main_v9_apply, val_main_v8_apply, val_main_v5_apply, val_main_v4_apply, hi, v3_eq]

/-- Value element (b, h, t, e): the projection at row 2048 b + t, column 2048 + 64 h + e. -/
theorem v11_eq (x0 : TX) (x1 : TWqkv) (x2 : TBqkv) (b : Fin 4) (h : Fin 16) (t : Fin 2048) (e : Fin 64) :
    val_main_v11 (F := Ideal) x0 x1 x2 (ix4 b h t e) = qkvMat x0 x1 x2 (row b t) (⟨2048 + (64 * h.val + e.val), by have := h.isLt; have := e.isLt; omega⟩ : Fin 3072) := by
  have hi : idx_main_v4 (idx_main_v5 (idx_main_v10 (idx_main_v11 (ix4 b h t e)))) = ix3 b t (⟨2048 + (64 * h.val + e.val), by have := h.isLt; have := e.isLt; omega⟩ : Fin 3072) := by
    obtain ⟨u0, u1, u2, u3⟩ := unflatten4 b h t e
    obtain ⟨w0, w1, w2⟩ := unflatten5 b h t e 2 (by norm_num)
    funext a; apply Fin.ext
    match a with
    | ⟨0, _⟩ =>
      show ((((((((b.val * 16 + h.val) * 2048 + t.val) * 64 + e.val) / 2097152 % 4) * 2048 + (((b.val * 16 + h.val) * 2048 + t.val) * 64 + e.val) / 64 % 2048) * 3 + (2 + 0)) * 16 + (((b.val * 16 + h.val) * 2048 + t.val) * 64 + e.val) / 131072 % 16) * 64 + (((b.val * 16 + h.val) * 2048 + t.val) * 64 + e.val) % 64) / 6291456 = b.val
      rw [u0, u1, u2, u3]; exact w0
    | ⟨1, _⟩ =>
      show ((((((((b.val * 16 + h.val) * 2048 + t.val) * 64 + e.val) / 2097152 % 4) * 2048 + (((b.val * 16 + h.val) * 2048 + t.val) * 64 + e.val) / 64 % 2048) * 3 + (2 + 0)) * 16 + (((b.val * 16 + h.val) * 2048 + t.val) * 64 + e.val) / 131072 % 16) * 64 + (((b.val * 16 + h.val) * 2048 + t.val) * 64 + e.val) % 64) / 3072 % 2048 = t.val
      rw [u0, u1, u2, u3]; exact w1
    | ⟨2, _⟩ =>
      show ((((((((b.val * 16 + h.val) * 2048 + t.val) * 64 + e.val) / 2097152 % 4) * 2048 + (((b.val * 16 + h.val) * 2048 + t.val) * 64 + e.val) / 64 % 2048) * 3 + (2 + 0)) * 16 + (((b.val * 16 + h.val) * 2048 + t.val) * 64 + e.val) / 131072 % 16) * 64 + (((b.val * 16 + h.val) * 2048 + t.val) * 64 + e.val) % 64) % 3072 = 2048 + (64 * h.val + e.val)
      rw [u0, u1, u2, u3]; exact w2.trans (by omega)
  rw [val_main_v11_apply, val_main_v10_apply, val_main_v5_apply, val_main_v4_apply, hi, v3_eq]

end Cert.ReferenceIdeal.RefValue

end
-- ==== Proof.Ref.Soft.lean ====
/-
  The reference's softmax, stage by stage, at one (batch, head, query row): the scaled score, the row's maximum, the
  exponentials, their sum and the quotients are the specification's `score`, `rowMax`, `num`, `den` and
  `num / den` at row 2048 b + t.
-/
import proofs.«109098_j72773925864105_2_alg».proof.Proof.Ref.Scale
import proofs.«109098_j72773925864105_2_alg».proof.Proof.Ref.Qkv

noncomputable section

namespace Cert.ReferenceIdeal.RefValue

open Cert.ReferenceIdeal Cert.ReferenceIdeal.Gen Cert.ReferenceIdeal.Read Idealize.ShloMosaic Idealize.ShloMosaic.ValueIdx Cert.Attn

/-- Seen from row 2048 b + t, the batch's j-th key row is row 2048 b + j. -/
theorem krow_row (b : Fin 4) (t j : Fin 2048) : krow (row b t) j = row b j := by
  apply Fin.ext
  show 2048 * ((2048 * b.val + t.val) / 2048) + j.val = 2048 * b.val + j.val
  have := t.isLt
  omega

/-- The host's 1 / sqrt 64, broadcast: the scale at every index. -/
theorem v15_eq (i : S4x16x2048x2048.Idx) : val_main_v15 (F := Ideal) i = scale := by
  rw [val_main_v15_apply, val_main_v14_apply, val_main_v13_apply, val_main_cst_apply, val_main_cst_0_apply]
  simp only [Ideal.hostDivf_def, Ideal.hostUnary_sqrt_def, Ideal.ofBits_def]
  exact scale_eq

/-- The scaled score of query row t against key row j in head h of batch b. -/
theorem v16_eq (x0 : TX) (x1 : TWqkv) (x2 : TBqkv) (b : Fin 4) (h : Fin 16) (t j : Fin 2048) :
    val_main_v16 (F := Ideal) x0 x1 x2 (ix4 b h t j) = score (qkvMat x0 x1 x2) (row b t) h j := by
  have hl : ∀ k : Fin 64, lidx_main_v12 (ix4 b h t j) k = ix4 b h t k := fun k => funext fun a => Fin.ext (by match a with | ⟨0, _⟩ => rfl | ⟨1, _⟩ => rfl | ⟨2, _⟩ => rfl | ⟨3, _⟩ => rfl)
  have hr : ∀ k : Fin 64, ridx_main_v12 (ix4 b h t j) k = ix4 b h j k := fun k => funext fun a => Fin.ext (by match a with | ⟨0, _⟩ => rfl | ⟨1, _⟩ => rfl | ⟨2, _⟩ => rfl | ⟨3, _⟩ => rfl)
  rw [val_main_v16_apply, val_main_v12_apply, v15_eq]
  simp only [hl, hr, v7_eq, v9_eq, Ideal.mulf_def]
  rw [score]
  simp only [krow_row]

/-- The max-reduce of the scores along the keys, from minus infinity. -/
theorem v17_eq (x0 : TX) (x1 : TWqkv) (x2 : TBqkv) (b : Fin 4) (h : Fin 16) (t : Fin 2048) :
    val_main_v17 (F := Ideal) x0 x1 x2 (ix3 b h t) = rowMax (qkvMat x0 x1 x2) (row b t) h := by
  have hred : S4x16x2048x2048.Reduces [3] S4x16x2048 := by decide
  have hlift : ∀ k : Fin 2048, hred.lift (ix3 b h t) k = ix4 b h t k := fun k =>
    funext fun c => Fin.ext (by match c with | ⟨0, _⟩ => rfl | ⟨1, _⟩ => rfl | ⟨2, _⟩ => rfl | ⟨3, _⟩ => rfl)
  have hf : (val_main_v16 (F := Ideal) x0 x1 x2 ∘ hred.lift (ix3 b h t)) = score (qkvMat x0 x1 x2) (row b t) h :=
    funext fun (k : Fin 2048) =>
      (congrArg (val_main_v16 (F := Ideal) x0 x1 x2) (hlift k)).trans (v16_eq x0 x1 x2 b h t k)
  unfold val_main_v17
  rw [Host.reduce_eq_fold_single FloatOps.maximumf _ _ reducesTo_S4x16x2048x2048_S4x16x2048_d3 hred h_S_, hf,
    val_main_cst_1_apply]
  rfl

/-- The maximum with the broadcast minus infinity changes nothing. -/
theorem v19_eq (x0 : TX) (x1 : TWqkv) (x2 : TBqkv) (b : Fin 4) (h : Fin 16) (t : Fin 2048) :
    val_main_v19 (F := Ideal) x0 x1 x2 (ix3 b h t) = rowMax (qkvMat x0 x1 x2) (row b t) h := by
  rw [val_main_v19_apply, val_main_v18_apply, val_main_cst_2_apply, v17_eq]
  simp only [Ideal.maximumf_def, Ideal.ofBits_def, ofBits_neg_inf]
  exact max_eq_right bot_le

/-- The exponential of the score less the row's maximum. -/
theorem v23_eq (x0 : TX) (x1 : TWqkv) (x2 : TBqkv) (b : Fin 4) (h : Fin 16) (t j : Fin 2048) :
    val_main_v23 (F := Ideal) x0 x1 x2 (ix4 b h t j) = num (qkvMat x0 x1 x2) (row b t) h j := by
  have hi : idx_main_v20 (idx_main_v21 (ix4 b h t j)) = ix3 b h t := funext fun a => Fin.ext (by match a with | ⟨0, _⟩ => rfl | ⟨1, _⟩ => rfl | ⟨2, _⟩ => rfl)
  rw [val_main_v23_apply, val_main_v22_apply, val_main_v21_apply, val_main_v20_apply, hi, v19_eq, v16_eq]
  simp only [Ideal.hostUnary_exp_def, Ideal.subf_def]
  rfl

/-- The sum of the row's exponentials, from the zero word. -/
theorem v24_eq (x0 : TX) (x1 : TWqkv) (x2 : TBqkv) (b : Fin 4) (h : Fin 16) (t : Fin 2048) :
    val_main_v24 (F := Ideal) x0 x1 x2 (ix3 b h t) = den (qkvMat x0 x1 x2) (row b t) h := by
  have hi : ∀ k : Fin 2048, idx_main_v24 (ix3 b h t) k = ix4 b h t k := fun k => funext fun a => Fin.ext (by match a with | ⟨0, _⟩ => rfl | ⟨1, _⟩ => rfl | ⟨2, _⟩ => rfl | ⟨3, _⟩ => rfl)
  rw [val_main_v24_apply, val_main_cst_3_apply]
  simp only [hi, v23_eq, Ideal.ofBits_def, Ideal.ofBits_zero_f32, zero_add]
  rfl

/-- The normalized exponential. -/
theorem v27_eq (x0 : TX) (x1 : TWqkv) (x2 : TBqkv) (b : Fin 4) (h : Fin 16) (t j : Fin 2048) :
    val_main_v27 (F := Ideal) x0 x1 x2 (ix4 b h t j)
      = Ideal.div (num (qkvMat x0 x1 x2) (row b t) h j) (den (qkvMat x0 x1 x2) (row b t) h) := by
  have hi : idx_main_v25 (idx_main_v26 (ix4 b h t j)) = ix3 b h t := funext fun a => Fin.ext (by match a with | ⟨0, _⟩ => rfl | ⟨1, _⟩ => rfl | ⟨2, _⟩ => rfl)
  rw [val_main_v27_apply, val_main_v26_apply, val_main_v25_apply, hi, v24_eq, v23_eq]
  rfl

end Cert.ReferenceIdeal.RefValue

end
-- ==== Proof.RefVal.lean ====
/-
  The reference's value is the specification: at (b, p, c) the reference's result is `mha` of the argument arrays at
  row 2048 b + p and column c.  The weighted sum of the value rows is the specification's `attn` at the head's
  column 64 h + d; the transpose and reshape back read it at head c / 64 and column c % 64 within the head; the
  output projection is `lin` again.
-/
import proofs.«109098_j72773925864105_2_alg».proof.Proof.Ref.Soft

noncomputable section

namespace Cert.ReferenceIdeal.RefValue

open Cert.ReferenceIdeal Cert.ReferenceIdeal.Gen Cert.ReferenceIdeal.Read Idealize.ShloMosaic Idealize.ShloMosaic.ValueIdx Cert.Attn

/-- Output column 64 h + d: column d of head h. -/
def col (h : Fin 16) (d : Fin 64) : Fin 1024 := ⟨64 * h.val + d.val, by have := h.isLt; have := d.isLt; omega⟩

/-- The weighted sum of the value rows, per (batch, head, query row, head column). -/
theorem v28_eq (x0 : TX) (x1 : TWqkv) (x2 : TBqkv) (b : Fin 4) (h : Fin 16) (t : Fin 2048) (d : Fin 64) :
    val_main_v28 (F := Ideal) x0 x1 x2 (ix4 b h t d) = attn (qkvMat x0 x1 x2) (row b t) (col h d) := by
  have hl : ∀ k : Fin 2048, lidx_main_v28 (ix4 b h t d) k = ix4 b h t k := fun k => funext fun a => Fin.ext (by match a with | ⟨0, _⟩ => rfl | ⟨1, _⟩ => rfl | ⟨2, _⟩ => rfl | ⟨3, _⟩ => rfl)
  have hr : ∀ k : Fin 2048, ridx_main_v28 (ix4 b h t d) k = ix4 b h k d := fun k => funext fun a => Fin.ext (by match a with | ⟨0, _⟩ => rfl | ⟨1, _⟩ => rfl | ⟨2, _⟩ => rfl | ⟨3, _⟩ => rfl)
  have hh : headOf (col h d) = h := Fin.ext (by
    show (64 * h.val + d.val) / 64 = h.val
    have := d.isLt
    omega)
  rw [val_main_v28_apply]
  simp only [hl, hr, v27_eq, v11_eq, attn, hh, krow_row]
  rfl

/-- Transposed back and reshaped to [4, 2048, 1024]: the attention at row 2048 b + p, column c. -/
theorem v30_eq (x0 : TX) (x1 : TWqkv) (x2 : TBqkv) (b : Fin 4) (p : Fin 2048) (c : Fin 1024) :
    val_main_v30 (F := Ideal) x0 x1 x2 (ix3 b p c) = attn (qkvMat x0 x1 x2) (row b p) c := by
  have hb := b.isLt
  have hp := p.isLt
  have hcl := c.isLt
  have hi : idx_main_v29 (idx_main_v30 (ix3 b p c))
      = ix4 b (⟨c.val / 64, by omega⟩ : Fin 16) p (⟨c.val % 64, Nat.mod_lt _ (by norm_num)⟩ : Fin 64) := by
    funext a; apply Fin.ext
    match a with
    | ⟨0, _⟩ => show ((b.val * 2048 + p.val) * 1024 + c.val) / 2097152 = b.val; omega
    | ⟨1, _⟩ => show ((b.val * 2048 + p.val) * 1024 + c.val) / 64 % 16 = c.val / 64; omega
    | ⟨2, _⟩ => show ((b.val * 2048 + p.val) * 1024 + c.val) / 1024 % 2048 = p.val; omega
    | ⟨3, _⟩ => show ((b.val * 2048 + p.val) * 1024 + c.val) % 64 = c.val % 64; omega
  have hc : col (⟨c.val / 64, by omega⟩ : Fin 16) (⟨c.val % 64, Nat.mod_lt _ (by norm_num)⟩ : Fin 64) = c :=
    Fin.ext (by show 64 * (c.val / 64) + c.val % 64 = c.val; omega)
  rw [val_main_v30_apply, val_main_v29_apply, hi, v28_eq, hc]

/-- THE REFERENCE IS THE SPECIFICATION: its result at (b, p, c) is `mha` of the input's rows, the two weight
    matrices and the two biases at row 2048 b + p and column c. -/
theorem ref_eq (x0 : (⟨S4x2048x1024, .f32⟩ : BufTy).Contents (Elt Ideal)) (x1 : (⟨S1024x3072, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal)) (b : Fin 4) (p : Fin 2048) (c : Fin 1024) :
    Cert.ReferenceIdeal.Read.val_main_v34 (F := Ideal) x0 x1 x2 x3 x4 (ValueIdx.ix3 b p c)
      = Cert.Attn.mha
          (fun r k => x0 (ValueIdx.ix3 (⟨r.val / 2048, by have := r.isLt; omega⟩ : Fin 4)
            (⟨r.val % 2048, Nat.mod_lt _ (by norm_num)⟩ : Fin 2048) k))
          (fun k n => x1 (ValueIdx.ix2 k n)) (fun n => x2 (ValueIdx.ix1 n))
          (fun k n => x3 (ValueIdx.ix2 k n)) (fun n => x4 (ValueIdx.ix1 n))
          (⟨2048 * b.val + p.val, by have := b.isLt; have := p.isLt; omega⟩ : Fin 8192) c := by
  have hl : ∀ k : Fin 1024, lidx_main_v31 (ix3 b p c) k = ix3 b p k := fun k => funext fun a => Fin.ext (by match a with | ⟨0, _⟩ => rfl | ⟨1, _⟩ => rfl | ⟨2, _⟩ => rfl)
  have hr : ∀ k : Fin 1024, ridx_main_v31 (ix3 b p c) k = ix2 k c := fun k => funext fun a => Fin.ext (by match a with | ⟨0, _⟩ => rfl | ⟨1, _⟩ => rfl)
  have hb : idx_main_v32 (idx_main_v33 (ix3 b p c)) = ix1 c := funext fun a => Fin.ext (by match a with | ⟨0, _⟩ => rfl)
  rw [val_main_v34_apply, val_main_v31_apply, val_main_v33_apply, val_main_v32_apply, hb]
  simp only [hl, hr, v30_eq, Ideal.addf_def]
  rfl

end Cert.ReferenceIdeal.RefValue

end
-- ==== Proof.lean ====
/-
  Multi-head attention in three kernel regions against the plain reference, equal on the extended reals.

  The kernel program reshapes the input to 8192 rows, projects them to queries, keys and values (a row-by-column
  product plus a bias), runs softmax attention per batch and head, and projects the result out (another product plus
  a bias); the reference does the same with one einsum per product and a five-dimensional transpose between them.
  Spec.lean states the common function `mha`.  On the kernel side each region's output array is the region's
  whole-array function of its input arrays (a block is what one grid point wrote, the blocks cover the array),
  and the three are composed through the program's reshapes (Bridge); on the reference side the generated
  read-at-an-index lemmas are chained through the forty host operations (RefVal).  No law beyond reading the two
  programs index by index is used: both compute the same sums, the same maximum, the same exponentials and the same
  quotients, the reference's scale 1 / sqrt 64 being the kernel's 1/8.  The three frames: the reference's is its
  generated run; the kernel programs' is the launch over their six segments (Run), at the word level and at the
  extended reals alike.  The idealization rewrote nothing, so `preserves` is `True`.
-/
import proofs.«109098_j72773925864105_2_alg».proof.Defs
import proofs.«109098_j72773925864105_2_alg».proof.Proof.Gen.Kernel
import proofs.«109098_j72773925864105_2_alg».proof.Proof.Gen.Kernel.Skeleton
import proofs.«109098_j72773925864105_2_alg».proof.Proof.Gen.Kernel.Launch
import proofs.«109098_j72773925864105_2_alg».proof.Proof.Gen.Kernel.Regions
import proofs.«109098_j72773925864105_2_alg».proof.Proof.Gen.Kernel.Points
import proofs.«109098_j72773925864105_2_alg».proof.Proof.Gen.KernelIdeal
import proofs.«109098_j72773925864105_2_alg».proof.Proof.Gen.KernelIdeal.Skeleton
import proofs.«109098_j72773925864105_2_alg».proof.Proof.Gen.KernelIdeal.Launch
import proofs.«109098_j72773925864105_2_alg».proof.Proof.Gen.KernelIdeal.Regions
import proofs.«109098_j72773925864105_2_alg».proof.Proof.Gen.KernelIdeal.Points
import proofs.«109098_j72773925864105_2_alg».proof.Proof.Gen.ReferenceIdeal
import proofs.«109098_j72773925864105_2_alg».proof.Proof.Gen.Pre_finite_inputs
import proofs.«109098_j72773925864105_2_alg».proof.Proof.Gen.ReferenceIdeal.Run
import proofs.«109098_j72773925864105_2_alg».proof.Proof.Gen.ReferenceIdeal.Read
import proofs.«109098_j72773925864105_2_alg».proof.Proof.K.Run
import proofs.«109098_j72773925864105_2_alg».proof.Proof.KI.Run
import proofs.«109098_j72773925864105_2_alg».proof.Proof.KI.Pay1
import proofs.«109098_j72773925864105_2_alg».proof.Proof.KI.Bridge
import proofs.«109098_j72773925864105_2_alg».proof.Proof.RefVal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the result array at `mha` of them:
    the kernel program's by the fold of its segments (`result_eq`), the reference's by its read lemmas (`ref_eq`). -/
theorem algebraic : Cert.algebraic_KernelIdeal_ReferenceIdeal := by
  intro m ρ m' ρ' _ hagree
  refine ⟨fun c => Cert.KernelIdeal.Hand.W6 (F := Ideal) m c (Proc.devRef .tc Cert.KernelIdeal.main_v6), ?_, ?_⟩
  · exact (θ_run Cert.KernelIdeal.defs _ _).mono (fun r h c =>
      ⟨h c _ (Cert.KernelIdeal.Hand.mem_uc Cert.KernelIdeal.main_v6 (by decide)),
       (h c _ (Cert.KernelIdeal.Hand.mem_uc Cert.KernelIdeal.main_arg0 (by decide))).trans (Cert.KernelIdeal.Hand.W6_main_arg0 m c),
       (h c _ (Cert.KernelIdeal.Hand.mem_uc Cert.KernelIdeal.main_arg1 (by decide))).trans (Cert.KernelIdeal.Hand.W6_main_arg1 m c),
       (h c _ (Cert.KernelIdeal.Hand.mem_uc Cert.KernelIdeal.main_arg2 (by decide))).trans (Cert.KernelIdeal.Hand.W6_main_arg2 m c),
       (h c _ (Cert.KernelIdeal.Hand.mem_uc Cert.KernelIdeal.main_arg3 (by decide))).trans (Cert.KernelIdeal.Hand.W6_main_arg3 m c),
       (h c _ (Cert.KernelIdeal.Hand.mem_uc Cert.KernelIdeal.main_arg4 (by decide))).trans (Cert.KernelIdeal.Hand.W6_main_arg4 m c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, (hagree c).1, (hagree c).2.1, (hagree c).2.2.1, (hagree c).2.2.2.1, (hagree c).2.2.2.2]
    funext i
    obtain ⟨b, p, n, rfl⟩ : ∃ (b : Fin 4) (p : Fin 2048) (n : Fin 1024), i = ValueIdx.ix3 b p n := ⟨i 0, i 1, i 2, ValueIdx.eq_ix3 i⟩
    rw [Cert.ReferenceIdeal.RefValue.ref_eq]
    exact (Cert.KernelIdeal.Hand.result_eq' m c b p n).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
